-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x200x512 : Shape := ⟨3, ![4, 200, 512]⟩
abbrev S4x50x512 : Shape := ⟨3, ![4, 50, 512]⟩
abbrev S1024x1024 : Shape := ⟨2, ![1024, 1024]⟩
abbrev S1024 : Shape := ⟨1, ![1024]⟩
abbrev S_ : Shape := ⟨0, ![]⟩

class Facts : Prop where
  bcast_S_S4x200x512 : S_.BroadcastsInDim S4x200x512 (![] : Fin 0 → Fin S4x200x512.rank)
  reducesTo_S4x200x512_S_d0_1_2 : S4x200x512.ReducesTo [0, 1, 2] S_
  h_S_ : 0 < S_.numel
  bcast_S_S4x50x512 : S_.BroadcastsInDim S4x50x512 (![] : Fin 0 → Fin S4x50x512.rank)
  reducesTo_S4x50x512_S_d0_1_2 : S4x50x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x200x512 .f32) (main_arg1 : FVec F S4x50x512 .f32) (main_arg2 : FVec F S1024x1024 .f32) (main_arg3 : FVec F S1024 .f32) : IVec S_ 1 :=
  let main_v0 : FVec F S4x200x512 .f32 := Host.absf main_arg0
  let main_cst : FVec F S_ .f32 := constant S_ .f32 0x7F800000#32
  let main_v1 : FVec F S4x200x512 .f32 := broadcastInDim S4x200x512 ![] bcast_S_S4x200x512 main_cst
  let main_v2 : IVec S4x200x512 1 := cmpf .olt main_v0 main_v1
  let main_c : IVec S_ 1 := constantI S_ 1 1#1
  let main_v3 : IVec S_ 1 := (fun x v => Host.reduce IntOp.andi x v reducesTo_S4x200x512_S_d0_1_2 h_S_) main_v2 main_c
  let main_v4 : FVec F S4x50x512 .f32 := Host.absf main_arg1
  let main_cst_0 : FVec F S_ .f32 := constant S_ .f32 0x7F800000#32
  let main_v5 : FVec F S4x50x512 .f32 := broadcastInDim S4x50x512 ![] bcast_S_S4x50x512 main_cst_0
  let main_v6 : IVec S4x50x512 1 := cmpf .olt main_v4 main_v5
  let main_c_1 : IVec S_ 1 := constantI S_ 1 1#1
  let main_v7 : IVec S_ 1 := (fun x v => Host.reduce IntOp.andi x v reducesTo_S4x50x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x200x512 : Shape := ⟨3, ![4, 200, 512]⟩
abbrev S4x50x512 : Shape := ⟨3, ![4, 50, 512]⟩
abbrev S1024x1024 : Shape := ⟨2, ![1024, 1024]⟩
abbrev S1024 : Shape := ⟨1, ![1024]⟩
abbrev S1024x512 : Shape := ⟨2, ![1024, 512]⟩
abbrev S800x512 : Shape := ⟨2, ![800, 512]⟩
abbrev S200x512 : Shape := ⟨2, ![200, 512]⟩
abbrev S800x1024 : Shape := ⟨2, ![800, 1024]⟩
abbrev S4x200x1024 : Shape := ⟨3, ![4, 200, 1024]⟩
abbrev S200x1024 : Shape := ⟨2, ![200, 1024]⟩
abbrev S4x50x1024 : Shape := ⟨3, ![4, 50, 1024]⟩
abbrev S1x1024 : Shape := ⟨2, ![1, 1024]⟩
abbrev S4x200x50x1024 : Shape := ⟨4, ![4, 200, 50, 1024]⟩
abbrev S1x40x1024 : Shape := ⟨3, ![1, 40, 1024]⟩
abbrev S1x50x1024 : Shape := ⟨3, ![1, 50, 1024]⟩
abbrev S1x40x50x1024 : Shape := ⟨4, ![1, 40, 50, 1024]⟩
abbrev S40x1024 : Shape := ⟨2, ![40, 1024]⟩
abbrev S50x1024 : Shape := ⟨2, ![50, 1024]⟩
abbrev S40x1x1024 : Shape := ⟨3, ![40, 1, 1024]⟩
abbrev S40x50x1024 : Shape := ⟨3, ![40, 50, 1024]⟩
abbrev S1x1x1024 : Shape := ⟨3, ![1, 1, 1024]⟩
abbrev S40x50 : Shape := ⟨2, ![40, 50]⟩
abbrev S40x50x1 : Shape := ⟨3, ![40, 50, 1]⟩

abbrev nBuf : Space → Nat
  | .hbm => 14
  | .vmem => 13
  | .smem => 0
  | _ => 0

abbrev bufTy : (tb : Table) → Fin (tcTables nBuf tb) → BufTy
  | .hbm, ⟨0, _⟩ => ⟨S4x200x512, .f32⟩
  | .hbm, ⟨1, _⟩ => ⟨S4x50x512, .f32⟩
  | .hbm, ⟨2, _⟩ => ⟨S1024x1024, .f32⟩
  | .hbm, ⟨3, _⟩ => ⟨S1024, .f32⟩
  | .hbm, ⟨4, _⟩ => ⟨S1024x512, .f32⟩
  | .hbm, ⟨5, _⟩ => ⟨S1024x512, .f32⟩
  | .hbm, ⟨6, _⟩ => ⟨S800x512, .f32⟩
  | .hbm, ⟨7, _⟩ => ⟨S200x512, .f32⟩
  | .hbm, ⟨8, _⟩ => ⟨S800x1024, .f32⟩
  | .hbm, ⟨9, _⟩ => ⟨S4x200x1024, .f32⟩
  | .hbm, ⟨10, _⟩ => ⟨S200x1024, .f32⟩
  | .hbm, ⟨11, _⟩ => ⟨S4x50x1024, .f32⟩
  | .hbm, ⟨12, _⟩ => ⟨S1x1024, .f32⟩
  | .hbm, ⟨13, _⟩ => ⟨S4x200x50x1024, .f32⟩
  | .local _ .vmem, ⟨0, _⟩ => ⟨S800x512, .f32⟩
  | .local _ .vmem, ⟨1, _⟩ => ⟨S1024x512, .f32⟩
  | .local _ .vmem, ⟨2, _⟩ => ⟨S800x1024, .f32⟩
  | .local _ .vmem, ⟨3, _⟩ => ⟨S200x512, .f32⟩
  | .local _ .vmem, ⟨4, _⟩ => ⟨S1024x512, .f32⟩
  | .local _ .vmem, ⟨5, _⟩ => ⟨S200x1024, .f32⟩
  | .local _ .vmem, ⟨6, _⟩ => ⟨S1x40x1024, .f32⟩
  | .local _ .vmem, ⟨7, _⟩ => ⟨S1x40x1024, .f32⟩
  | .local _ .vmem, ⟨8, _⟩ => ⟨S1x50x1024, .f32⟩
  | .local _ .vmem, ⟨9, _⟩ => ⟨S1x50x1024, .f32⟩
  | .local _ .vmem, ⟨10, _⟩ => ⟨S1x1024, .f32⟩
  | .local _ .vmem, ⟨11, _⟩ => ⟨S1x40x50x1024, .f32⟩
  | .local _ .vmem, ⟨12, _⟩ => ⟨S1x40x50x1024, .f32⟩
  | _, _ => ⟨S4x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg3_1 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem0_1 : DmaSem sig := 7
abbrev cc2_sem1_0 : DmaSem sig := 8
abbrev cc2_sem1_1 : DmaSem sig := 9
abbrev cc2_sem2_0 : DmaSem sig := 10
abbrev cc2_sem3_0 : DmaSem sig := 11
abbrev cc2_sem3_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S800x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S800x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S200x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S200x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨2, ![4, 5], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x40x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x50x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x40x50x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  slices_S1024x1024_S1024x512_0_0 : S1024x1024.Slices ![0, 0] S1024x512
  slices_S1024x1024_S1024x512_0_512 : S1024x1024.Slices ![0, 512] S1024x512
  shapeCasts_S4x200x512_S800x512 : S4x200x512.ShapeCasts S800x512
  shapeCasts_S4x50x512_S200x512 : S4x50x512.ShapeCasts S200x512
  inb_S800x512_S800x512_0_0 : ∀ a, (![0, 0] : Fin 2 → Nat) a + S800x512.size a ≤ S800x512.size a
  h_S800x512 : 0 < S800x512.numel
  shapeCasts_S800x512_S800x512 : S800x512.ShapeCasts S800x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S800x1024_S800x1024_0_0 : ∀ a, (![0, 0] : Fin 2 → Nat) a + S800x1024.size a ≤ S800x1024.size a
  h_S800x1024 : 0 < S800x1024.numel
  shapeCasts_S800x1024_S4x200x1024 : S800x1024.ShapeCasts S4x200x1024
  inb_S200x512_S200x512_0_0 : ∀ a, (![0, 0] : Fin 2 → Nat) a + S200x512.size a ≤ S200x512.size a
  h_S200x512 : 0 < S200x512.numel
  shapeCasts_S200x512_S200x512 : S200x512.ShapeCasts S200x512
  inb_S200x1024_S200x1024_0_0 : ∀ a, (![0, 0] : Fin 2 → Nat) a + S200x1024.size a ≤ S200x1024.size a
  h_S200x1024 : 0 < S200x1024.numel
  shapeCasts_S200x1024_S4x50x1024 : S200x1024.ShapeCasts S4x50x1024
  shapeCasts_S1024_S1x1024 : S1024.ShapeCasts S1x1024
  inb_S1x40x1024_S1x40x1024_0_0_0 : ∀ a, (![0, 0, 0] : Fin 3 → Nat) a + S1x40x1024.size a ≤ S1x40x1024.size a
  h_S1x40x1024 : 0 < S1x40x1024.numel
  shapeCasts_S1x40x1024_S40x1024 : S1x40x1024.ShapeCasts S40x1024
  inb_S1x50x1024_S1x50x1024_0_0_0 : ∀ a, (![0, 0, 0] : Fin 3 → Nat) a + S1x50x1024.size a ≤ S1x50x1024.size a
  h_S1x50x1024 : 0 < S1x50x1024.numel
  shapeCasts_S1x50x1024_S50x1024 : S1x50x1024.ShapeCasts S50x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S40x1024_S40x1x1024 : S40x1024.ShapeCasts S40x1x1024
  shapeCasts_S50x1024_S1x50x1024 : S50x1024.ShapeCasts S1x50x1024
  broadcasts_S40x1x1024_S40x50x1024 : S40x1x1024.Broadcasts S40x50x1024
  broadcasts_S1x50x1024_S40x50x1024 : S1x50x1024.Broadcasts S40x50x1024
  shapeCasts_S1x1024_S1x1x1024 : S1x1024.ShapeCasts S1x1x1024
  broadcasts_S1x1x1024_S40x50x1024 : S1x1x1024.Broadcasts S40x50x1024
  reduces_S40x50x1024_S40x50 : S40x50x1024.Reduces [2] S40x50
  shapeCasts_S40x50_S40x50x1 : S40x50.ShapeCasts S40x50x1
  broadcasts_S40x50x1_S40x50x1024 : S40x50x1.Broadcasts S40x50x1024
  inb_S1x40x50x1024_S1x40x50x1024_0_0_0_0 : ∀ a, (![0, 0, 0, 0] : Fin 4 → Nat) a + S1x40x50x1024.size a ≤ S1x40x50x1024.size a
  h_S1x40x50x1024 : 0 < S1x40x50x1024.numel
  shapeCasts_S1x40x50x1024_S40x50x1024 : S1x40x50x1024.ShapeCasts S40x50x1024
  shapeCasts_S40x50x1024_S1x40x50x1024 : S40x50x1024.ShapeCasts S1x40x50x1024
  dot_S800x512_S1024x512_S800x1024_1_1_0_0_n_n_wf : DotDims.WF S800x512 S1024x512 S800x1024 [1] [1] [0] [0] [] []
  dot_S200x512_S1024x512_S200x1024_1_1_0_0_n_n_wf : DotDims.WF S200x512 S1024x512 S200x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S800x512.size a ≤ S800x512.size a
  hwx0_0 : ∀ i : grid0.Coords, EltTy.bits .f32 = 32 ∨ (Rect.block (s := S800x512) S800x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S800x1024.size a ≤ S800x1024.size a
  hwx0_2 : ∀ i : grid0.Coords, EltTy.bits .f32 = 32 ∨ (Rect.block (s := S800x1024) S800x1024.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S200x512.size a ≤ S200x512.size a
  hwx1_0 : ∀ i : grid1.Coords, EltTy.bits .f32 = 32 ∨ (Rect.block (s := S200x512) S200x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S200x1024.size a ≤ S200x1024.size a
  hwx1_2 : ∀ i : grid1.Coords, EltTy.bits .f32 = 32 ∨ (Rect.block (s := S200x1024) S200x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x40x1024.size a ≤ S4x200x1024.size a
  hwx2_0 : ∀ i : grid2.Coords, EltTy.bits .f32 = 32 ∨ (Rect.block (s := S4x200x1024) S1x40x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x50x1024.size a ≤ S4x50x1024.size a
  hwx2_1 : ∀ i : grid2.Coords, EltTy.bits .f32 = 32 ∨ (Rect.block (s := S4x50x1024) S1x50x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x40x50x1024.size a ≤ S4x200x50x1024.size a
  hwx2_3 : ∀ i : grid2.Coords, EltTy.bits .f32 = 32 ∨ (Rect.block (s := S4x200x50x1024) S1x40x50x1024.size (cc2_transform_3 i) (hinb2_3 i)).WholeWords (EltTy.packing .f32)

variable [Facts₀]

def dot_S800x512_S1024x512_S800x1024_1_1_0_0_n_n : DotDims S800x512 S1024x512 S800x1024 where
  lhsContracting := [1]
  rhsContracting := [1]
  lhsNonContracting := [0]
  rhsNonContracting := [0]
  lhsBatch := []
  rhsBatch := []
  wf := dot_S800x512_S1024x512_S800x1024_1_1_0_0_n_n_wf
def dot_S200x512_S1024x512_S200x1024_1_1_0_0_n_n : DotDims S200x512 S1024x512 S200x1024 where
  lhsContracting := [1]
  rhsContracting := [1]
  lhsNonContracting := [0]
  rhsNonContracting := [0]
  lhsBatch := []
  rhsBatch := []
  wf := dot_S200x512_S1024x512_S200x1024_1_1_0_0_n_n_wf

abbrev win0_0 : Pipeline.Window sig grid0 :=
  Pipeline.Window.ofSpec (Memref.whole main_v2) S800x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S800x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S200x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S200x1024.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v5) S1x40x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x50x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x40x50x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x200x512 : Shape := ⟨3, ![4, 200, 512]⟩
abbrev S4x50x512 : Shape := ⟨3, ![4, 50, 512]⟩
abbrev S1024x1024 : Shape := ⟨2, ![1024, 1024]⟩
abbrev S1024 : Shape := ⟨1, ![1024]⟩
abbrev S1024x512 : Shape := ⟨2, ![1024, 512]⟩
abbrev S4x200x1024 : Shape := ⟨3, ![4, 200, 1024]⟩
abbrev S4x50x1024 : Shape := ⟨3, ![4, 50, 1024]⟩
abbrev S4x200x1x1024 : Shape := ⟨4, ![4, 200, 1, 1024]⟩
abbrev S4x1x50x1024 : Shape := ⟨4, ![4, 1, 50, 1024]⟩
abbrev S4x200x50x1024 : Shape := ⟨4, ![4, 200, 50, 1024]⟩
abbrev S1x1x1x1024 : Shape := ⟨4, ![1, 1, 1, 1024]⟩
abbrev S_ : Shape := ⟨0, ![]⟩
abbrev S4x200x50 : Shape := ⟨3, ![4, 200, 50]⟩
abbrev S4x200x50x1 : Shape := ⟨4, ![4, 200, 50, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x200x512, .f32⟩
  | .hbm, ⟨1, _⟩ => ⟨S4x50x512, .f32⟩
  | .hbm, ⟨2, _⟩ => ⟨S1024x1024, .f32⟩
  | .hbm, ⟨3, _⟩ => ⟨S1024, .f32⟩
  | .hbm, ⟨4, _⟩ => ⟨S1024x512, .f32⟩
  | .hbm, ⟨5, _⟩ => ⟨S1024x512, .f32⟩
  | .hbm, ⟨6, _⟩ => ⟨S4x200x512, .f32⟩
  | .hbm, ⟨7, _⟩ => ⟨S4x200x1024, .f32⟩
  | .hbm, ⟨8, _⟩ => ⟨S4x50x512, .f32⟩
  | .hbm, ⟨9, _⟩ => ⟨S4x50x1024, .f32⟩
  | .hbm, ⟨10, _⟩ => ⟨S4x200x1x1024, .f32⟩
  | .hbm, ⟨11, _⟩ => ⟨S4x1x50x1024, .f32⟩
  | .hbm, ⟨12, _⟩ => ⟨S4x200x50x1024, .f32⟩
  | .hbm, ⟨13, _⟩ => ⟨S4x200x50x1024, .f32⟩
  | .hbm, ⟨14, _⟩ => ⟨S4x200x50x1024, .f32⟩
  | .hbm, ⟨15, _⟩ => ⟨S1x1x1x1024, .f32⟩
  | .hbm, ⟨16, _⟩ => ⟨S4x200x50x1024, .f32⟩
  | .hbm, ⟨17, _⟩ => ⟨S4x200x50x1024, .f32⟩
  | .hbm, ⟨18, _⟩ => ⟨S_, .f32⟩
  | .hbm, ⟨19, _⟩ => ⟨S4x200x50, .f32⟩
  | .hbm, ⟨20, _⟩ => ⟨S_, .f32⟩
  | .hbm, ⟨21, _⟩ => ⟨S4x200x50, .f32⟩
  | .hbm, ⟨22, _⟩ => ⟨S4x200x50, .f32⟩
  | .hbm, ⟨23, _⟩ => ⟨S4x200x50x1, .f32⟩
  | .hbm, ⟨24, _⟩ => ⟨S4x200x50x1024, .f32⟩
  | .hbm, ⟨25, _⟩ => ⟨S4x200x50x1024, .f32⟩
  | .hbm, ⟨26, _⟩ => ⟨S4x200x50x1024, .f32⟩
  | .hbm, ⟨27, _⟩ => ⟨S_, .f32⟩
  | .hbm, ⟨28, _⟩ => ⟨S4x200x50, .f32⟩
  | .hbm, ⟨29, _⟩ => ⟨S4x200x50x1, .f32⟩
  | .hbm, ⟨30, _⟩ => ⟨S4x200x50x1, .f32⟩
  | .hbm, ⟨31, _⟩ => ⟨S4x200x50x1024, .f32⟩
  | .hbm, ⟨32, _⟩ => ⟨S4x200x50x1024, .f32⟩
  | _, _ => ⟨S4x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_cst : Ref sig .tc := ⟨.hbm, 18, rfl⟩
abbrev main_call0_v0 : Ref sig .tc := ⟨.hbm, 19, rfl⟩
abbrev main_call0_cst_0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_cst_1 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_v14 : Ref sig .tc := ⟨.hbm, 32, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S4x200x1024_S4x200x1x1024_0_1_3 : S4x200x1024.BroadcastsInDim S4x200x1x1024 (![0, 1, 3] : Fin 3 → Fin S4x200x1x1024.rank)
  bcast_S4x50x1024_S4x1x50x1024_0_2_3 : S4x50x1024.BroadcastsInDim S4x1x50x1024 (![0, 2, 3] : Fin 3 → Fin S4x1x50x1024.rank)
  bcast_S4x200x1x1024_S4x200x50x1024_0_1_2_3 : S4x200x1x1024.BroadcastsInDim S4x200x50x1024 (![0, 1, 2, 3] : Fin 4 → Fin S4x200x50x1024.rank)
  bcast_S4x1x50x1024_S4x200x50x1024_0_1_2_3 : S4x1x50x1024.BroadcastsInDim S4x200x50x1024 (![0, 1, 2, 3] : Fin 4 → Fin S4x200x50x1024.rank)
  bcast_S1024_S1x1x1x1024_3 : S1024.BroadcastsInDim S1x1x1x1024 (![3] : Fin 1 → Fin S1x1x1x1024.rank)
  bcast_S1x1x1x1024_S4x200x50x1024_0_1_2_3 : S1x1x1x1024.BroadcastsInDim S4x200x50x1024 (![0, 1, 2, 3] : Fin 4 → Fin S4x200x50x1024.rank)
  reducesTo_S4x200x50x1024_S4x200x50_d3 : S4x200x50x1024.ReducesTo [3] S4x200x50
  h_S_ : 0 < S_.numel
  bcast_S_S4x200x50 : S_.BroadcastsInDim S4x200x50 (![] : Fin 0 → Fin S4x200x50.rank)
  bcast_S4x200x50_S4x200x50x1_0_1_2 : S4x200x50.BroadcastsInDim S4x200x50x1 (![0, 1, 2] : Fin 3 → Fin S4x200x50x1.rank)
  bcast_S4x200x50x1_S4x200x50x1024_0_1_2_3 : S4x200x50x1.BroadcastsInDim S4x200x50x1024 (![0, 1, 2, 3] : Fin 4 → Fin S4x200x50x1024.rank)
  dot_S4x200x512_S1024x512_S4x200x1024_2_1_01_0_n_n_wf : DotDims.WF S4x200x512 S1024x512 S4x200x1024 [2] [1] [0, 1] [0] [] []
  dot_S4x50x512_S1024x512_S4x50x1024_2_1_01_0_n_n_wf : DotDims.WF S4x50x512 S1024x512 S4x50x1024 [2] [1] [0, 1] [0] [] []

variable [Facts₀]

def dot_S4x200x512_S1024x512_S4x200x1024_2_1_01_0_n_n : DotDims S4x200x512 S1024x512 S4x200x1024 where
  lhsContracting := [2]
  rhsContracting := [1]
  lhsNonContracting := [0, 1]
  rhsNonContracting := [0]
  lhsBatch := []
  rhsBatch := []
  wf := dot_S4x200x512_S1024x512_S4x200x1024_2_1_01_0_n_n_wf
def dot_S4x50x512_S1024x512_S4x50x1024_2_1_01_0_n_n : DotDims S4x50x512 S1024x512 S4x50x1024 where
  lhsContracting := [2]
  rhsContracting := [1]
  lhsNonContracting := [0, 1]
  rhsNonContracting := [0]
  lhsBatch := []
  rhsBatch := []
  wf := dot_S4x50x512_S1024x512_S4x50x1024_2_1_01_0_n_n_wf

class Facts : Prop extends Facts₀ where

variable [Facts]
-- ==== Proof.KRun.lean ====
/-
  The idealized kernel's run with its result named.

  @main is three kernel regions among stretches of host operations (two slices of W and two reshapes; a reshape; two
  reshapes). The run through those six segments ends, on every core, with every buffer that outlives a region at the
  last boundary's contents `W6`: the arguments as launched, and the result buffer at what the third region's
  write-backs leave of its output array, `(dat2 (V5 m ρ) c).arrAt 3 cfg2.N`. The four argument conjuncts are the frame's;
  the first conjunct reads the result buffer off the same final state.
-/
import proofs.«179335_j24481313587346_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the four argument arrays as launched. -/
theorem run_result : θ_run defs (onTc (τ := τ) (main (F := F))) ⟨m, fun _ => 0, ρ⟩ (fun r => ∀ c : Dev nD,
      r.2.mem ((c.tc : Thread nD τ).loc main_v9) = W6 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v9 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

/-- The last boundary's contents at the result buffer: the third region's output array after its write-backs. -/
theorem W6_result (c : Dev nD) : W6 m ρ c (Proc.devRef .tc main_v9) = (dat2 (V5 m ρ) c).arrAt 3 cfg2.N :=
  W6_arr m ρ c 3

end Cert.KernelIdeal.RunValue

end
-- ==== Proof.KProj.lean ====
/-
  What the two projection kernels store, read at an entry, on the extended reals.

  Each kernel loads a block x of rows and the block w of 1024 rows of weights, and stores
  matmul (bf16 (tanh x)) (bf16 w) into a zero accumulator, contracting the 512 columns of both. On the extended reals
  a change of float format is the identity and the product into a zero accumulator is the plain sum, so the stored
  value at (r, v) is  ∑ k < 512, tanh (x[r,k]) · w[v,k].
-/
import proofs.«179335_j24481313587346_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.ProjValue

open Cert.KernelIdeal Cert.KernelIdeal.Gen Idealize.ShloMosaic Idealize.ShloMosaic.ValueIdx

/-! ## The projection kernel on 800 rows -/

/-- The left operand's row coordinate is the output's row. -/
theorem lhs0_0 (i : S800x1024.Idx) (q : dot_S800x512_S1024x512_S800x1024_1_1_0_0_n_n.contr.Idx) : (dot_S800x512_S1024x512_S800x1024_1_1_0_0_n_n.lhsIdx i q 0).val = (i 0).val := by
  unfold DotDims.lhsIdx
  rw [dif_neg (show ¬(0 : Fin S800x512.rank) ∈ dot_S800x512_S1024x512_S800x1024_1_1_0_0_n_n.lhsBatch by decide), dif_pos (show (0 : Fin S800x512.rank) ∈ dot_S800x512_S1024x512_S800x1024_1_1_0_0_n_n.lhsNonContracting by decide)]
  rfl
/-- The left operand's column coordinate is the contracted position. -/
theorem lhs0_1 (i : S800x1024.Idx) (q : dot_S800x512_S1024x512_S800x1024_1_1_0_0_n_n.contr.Idx) : (dot_S800x512_S1024x512_S800x1024_1_1_0_0_n_n.lhsIdx i q 1).val = (q ⟨0, by decide⟩).val :=
  dot_S800x512_S1024x512_S800x1024_1_1_0_0_n_n.lhsIdx_val_of_single rfl i q
/-- The right operand's row coordinate is the output's column. -/
theorem rhs0_0 (i : S800x1024.Idx) (q : dot_S800x512_S1024x512_S800x1024_1_1_0_0_n_n.contr.Idx) : (dot_S800x512_S1024x512_S800x1024_1_1_0_0_n_n.rhsIdx i q 0).val = (i 1).val := by
  unfold DotDims.rhsIdx
  rw [dif_neg (show ¬(0 : Fin S1024x512.rank) ∈ dot_S800x512_S1024x512_S800x1024_1_1_0_0_n_n.rhsBatch by decide), dif_pos (show (0 : Fin S1024x512.rank) ∈ dot_S800x512_S1024x512_S800x1024_1_1_0_0_n_n.rhsNonContracting by decide)]
  rfl
/-- The right operand's column coordinate is the contracted position. -/
theorem rhs0_1 (i : S800x1024.Idx) (q : dot_S800x512_S1024x512_S800x1024_1_1_0_0_n_n.contr.Idx) : (dot_S800x512_S1024x512_S800x1024_1_1_0_0_n_n.rhsIdx i q 1).val = (q ⟨0, by decide⟩).val :=
  dot_S800x512_S1024x512_S800x1024_1_1_0_0_n_n.rhsIdx_val_of_single rfl i q

/-- The body's stored value at entry (r, v): the row r of tanh of the first block against the row v of the second,
    summed over the 512 contracted positions (the two changes of format are the identity on the extended reals, the
    accumulator is the zero splat). -/
theorem pay0_apply (x0 : Vec Ideal S800x512 .f32) (x1 : Vec Ideal S1024x512 .f32) (r : Fin 800) (v : Fin 1024) :
    k0_pay1 (F := Ideal) x0 x1 (ix2 r v) = ∑ k : Fin 512, Ideal.tanh (x0 (ix2 r k)) * x1 (ix2 v k) := by
  unfold k0_pay1
  simp only [matmul]
  rw [Ideal.matmul_constant_zero_apply, ← Equiv.sum_comp (contrEquiv1 dot_S800x512_S1024x512_S800x1024_1_1_0_0_n_n 512 rfl rfl).symm]
  refine Finset.sum_congr rfl fun k _ => ?_
  have hk := contrEquiv1_symm_val dot_S800x512_S1024x512_S800x1024_1_1_0_0_n_n 512 rfl rfl k
  have el : dot_S800x512_S1024x512_S800x1024_1_1_0_0_n_n.lhsIdx (ix2 r v) ((contrEquiv1 dot_S800x512_S1024x512_S800x1024_1_1_0_0_n_n 512 rfl rfl).symm k) = ix2 r k := funext fun a => Fin.ext (by
    match a with
    | ⟨0, _⟩ => exact lhs0_0 _ _
    | ⟨1, _⟩ => exact (lhs0_1 _ _).trans hk)
  have er : dot_S800x512_S1024x512_S800x1024_1_1_0_0_n_n.rhsIdx (ix2 r v) ((contrEquiv1 dot_S800x512_S1024x512_S800x1024_1_1_0_0_n_n 512 rfl rfl).symm k) = ix2 v k := funext fun a => Fin.ext (by
    match a with
    | ⟨0, _⟩ => exact rhs0_0 _ _
    | ⟨1, _⟩ => exact (rhs0_1 _ _).trans hk)
  rw [el, er, shapeCast_self, shapeCast_self]
  rfl

/-! ## The projection kernel on 200 rows -/

/-- The left operand's row coordinate is the output's row. -/
theorem lhs1_0 (i : S200x1024.Idx) (q : dot_S200x512_S1024x512_S200x1024_1_1_0_0_n_n.contr.Idx) : (dot_S200x512_S1024x512_S200x1024_1_1_0_0_n_n.lhsIdx i q 0).val = (i 0).val := by
  unfold DotDims.lhsIdx
  rw [dif_neg (show ¬(0 : Fin S200x512.rank) ∈ dot_S200x512_S1024x512_S200x1024_1_1_0_0_n_n.lhsBatch by decide), dif_pos (show (0 : Fin S200x512.rank) ∈ dot_S200x512_S1024x512_S200x1024_1_1_0_0_n_n.lhsNonContracting by decide)]
  rfl
/-- The left operand's column coordinate is the contracted position. -/
theorem lhs1_1 (i : S200x1024.Idx) (q : dot_S200x512_S1024x512_S200x1024_1_1_0_0_n_n.contr.Idx) : (dot_S200x512_S1024x512_S200x1024_1_1_0_0_n_n.lhsIdx i q 1).val = (q ⟨0, by decide⟩).val :=
  dot_S200x512_S1024x512_S200x1024_1_1_0_0_n_n.lhsIdx_val_of_single rfl i q
/-- The right operand's row coordinate is the output's column. -/
theorem rhs1_0 (i : S200x1024.Idx) (q : dot_S200x512_S1024x512_S200x1024_1_1_0_0_n_n.contr.Idx) : (dot_S200x512_S1024x512_S200x1024_1_1_0_0_n_n.rhsIdx i q 0).val = (i 1).val := by
  unfold DotDims.rhsIdx
  rw [dif_neg (show ¬(0 : Fin S1024x512.rank) ∈ dot_S200x512_S1024x512_S200x1024_1_1_0_0_n_n.rhsBatch by decide), dif_pos (show (0 : Fin S1024x512.rank) ∈ dot_S200x512_S1024x512_S200x1024_1_1_0_0_n_n.rhsNonContracting by decide)]
  rfl
/-- The right operand's column coordinate is the contracted position. -/
theorem rhs1_1 (i : S200x1024.Idx) (q : dot_S200x512_S1024x512_S200x1024_1_1_0_0_n_n.contr.Idx) : (dot_S200x512_S1024x512_S200x1024_1_1_0_0_n_n.rhsIdx i q 1).val = (q ⟨0, by decide⟩).val :=
  dot_S200x512_S1024x512_S200x1024_1_1_0_0_n_n.rhsIdx_val_of_single rfl i q

/-- The body's stored value at entry (r, v): the row r of tanh of the first block against the row v of the second,
    summed over the 512 contracted positions (the two changes of format are the identity on the extended reals, the
    accumulator is the zero splat). -/
theorem pay1_apply (x0 : Vec Ideal S200x512 .f32) (x1 : Vec Ideal S1024x512 .f32) (r : Fin 200) (v : Fin 1024) :
    k1_pay1 (F := Ideal) x0 x1 (ix2 r v) = ∑ k : Fin 512, Ideal.tanh (x0 (ix2 r k)) * x1 (ix2 v k) := by
  unfold k1_pay1
  simp only [matmul]
  rw [Ideal.matmul_constant_zero_apply, ← Equiv.sum_comp (contrEquiv1 dot_S200x512_S1024x512_S200x1024_1_1_0_0_n_n 512 rfl rfl).symm]
  refine Finset.sum_congr rfl fun k _ => ?_
  have hk := contrEquiv1_symm_val dot_S200x512_S1024x512_S200x1024_1_1_0_0_n_n 512 rfl rfl k
  have el : dot_S200x512_S1024x512_S200x1024_1_1_0_0_n_n.lhsIdx (ix2 r v) ((contrEquiv1 dot_S200x512_S1024x512_S200x1024_1_1_0_0_n_n 512 rfl rfl).symm k) = ix2 r k := funext fun a => Fin.ext (by
    match a with
    | ⟨0, _⟩ => exact lhs1_0 _ _
    | ⟨1, _⟩ => exact (lhs1_1 _ _).trans hk)
  have er : dot_S200x512_S1024x512_S200x1024_1_1_0_0_n_n.rhsIdx (ix2 r v) ((contrEquiv1 dot_S200x512_S1024x512_S200x1024_1_1_0_0_n_n 512 rfl rfl).symm k) = ix2 v k := funext fun a => Fin.ext (by
    match a with
    | ⟨0, _⟩ => exact rhs1_0 _ _
    | ⟨1, _⟩ => exact (rhs1_1 _ _).trans hk)
  rw [el, er, shapeCast_self, shapeCast_self]
  rfl

end Cert.KernelIdeal.ProjValue

end
-- ==== Proof.KRegionProj.lean ====
/-
  The two projection regions: each output array after its region, as one function of the region's two input arrays.

  Each projection runs on a grid of one point whose blocks are the whole arrays, so the point's write-back IS the
  output array: entry (r, v) is ∑ k < 512, tanh (X[r,k]) · Wh[v,k] with X the rows and Wh the half of W the region
  was handed. Stated at any contents V of the buffers when the region is entered.
-/
import proofs.«179335_j24481313587346_2_alg».proof.Proof.Gen.KernelIdeal.Frame
import proofs.«179335_j24481313587346_2_alg».proof.Proof.KProj
import Idealize.ShloMosaic.Lib.ValueIdx
import Idealize.ShloMosaic.Lib.Pipeline.Value

set_option maxRecDepth 16384

noncomputable section

namespace Cert.KernelIdeal.ProjRegion

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the projection on 800 rows -/

/-- The projection of two arrays: entry (r, v) is the row r of tanh X against the row v of Wh. -/
def P0 (X : Vec Ideal S800x512 .f32) (Wh : Vec Ideal S1024x512 .f32) : Vec Ideal S800x1024 .f32 :=
  fun j => ∑ k : Fin 512, Ideal.tanh (X (ix2 (j 0) k)) * Wh (ix2 (j 1) k)

theorem P0_ix2 (X : Vec Ideal S800x512 .f32) (Wh : Vec Ideal S1024x512 .f32) (r : Fin 800) (v : Fin 1024) :
    P0 X Wh (ix2 r v) = ∑ k : Fin 512, Ideal.tanh (X (ix2 r k)) * Wh (ix2 v k) := rfl

/-- The grid has one point, and every window's block there is block (0, 0): the whole array. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the point writes back is the block of the projection of the two arrays as the region finds them. -/
theorem flushed0_eq (c : Dev nD) (t : Fin cfg0.N) :
    (dat0 (F := Ideal) V c).flushed 2 t
      = ((cfg0.win 2).blk t).view.read (Elt Ideal) (P0 (V c main_v2) (V c main_v0)) := by
  show (cfg0.win 2).cut (grid0.coords t) ((dat0 V c).after 2 t) = _
  rw [after0_2]
  unfold out0_2
  rw [View.canon_unit_zero hz]
  simp only [View.ld_unit_zero (S := S800x512) hz, View.ld_unit_zero (S := S1024x512) hz]
  obtain ⟨e0, e1, e2, e3, e4, e5⟩ := idx_facts0 t
  funext j
  obtain ⟨r, v, rfl⟩ : ∃ (r : Fin 800) (v : Fin 1024), j = ix2 r v := ⟨j 0, j 1, eq_ix2 j⟩
  refine (ProjValue.pay0_apply _ _ r v).trans ?_
  show _ = P0 (V c main_v2) (V c main_v0) (((cfg0.win 2).blk t).view.emb (ix2 r v))
  have hout : ((cfg0.win 2).blk t).view.emb (ix2 r v) = ix2 r v := by
    funext a; apply Fin.ext
    match a with
    | ⟨0, _⟩ => show win0_2.index t (0 : Fin 2) * 800 + 1 * r.val = r.val; omega
    | ⟨1, _⟩ => show win0_2.index t (1 : Fin 2) * 1024 + 1 * v.val = v.val; omega
  rw [hout, P0_ix2]
  refine Finset.sum_congr rfl fun k _ => ?_
  have h0 : iblk0 V c 0 t (ix2 r k) = V c main_v2 (ix2 r k) := by
    show V c main_v2 (((cfg0.win 0).blk t).view.emb (ix2 r k)) = _
    refine congrArg _ ?_
    funext a; apply Fin.ext
    match a with
    | ⟨0, _⟩ => show win0_0.index t (0 : Fin 2) * 800 + 1 * r.val = r.val; omega
    | ⟨1, _⟩ => show win0_0.index t (1 : Fin 2) * 512 + 1 * k.val = k.val; omega
  have h1 : iblk0 V c 1 t (ix2 v k) = V c main_v0 (ix2 v k) := by
    show V c main_v0 (((cfg0.win 1).blk t).view.emb (ix2 v k)) = _
    refine congrArg _ ?_
    funext a; apply Fin.ext
    match a with
    | ⟨0, _⟩ => show win0_1.index t (0 : Fin 2) * 1024 + 1 * v.val = v.val; omega
    | ⟨1, _⟩ => show win0_1.index t (1 : Fin 2) * 512 + 1 * k.val = k.val; omega
  rw [h0, h1]

/-- An index of the output array is in the point's block iff each coordinate is in the block's range on its axis. -/
theorem mem_blk0 (t : Fin cfg0.N) (i : S800x1024.Idx) :
    i ∈ ((cfg0.win 2).blk t).view.set ↔ ∀ a : Fin 2, win0_2.index t a * S800x1024.size a ≤ (i a).val ∧ (i a).val < win0_2.index t a * S800x1024.size a + S800x1024.size a := by
  show i ∈ ((View.whole main_v4).slice (win0_2.rect t)).set ↔ _
  rw [View.set_slice_whole, Rect.mem_set_unit]
  exact Iff.rfl

/-- The one point's block covers the whole output array. -/
theorem cover0 (i : S800x1024.Idx) :
    ∃ t : Fin cfg0.N, (cfg0.win 2).flush t = true ∧ i ∈ ((cfg0.win 2).blk t).view.set := by
  refine ⟨⟨0, by decide⟩, flush0_2 _, ?_⟩
  rw [mem_blk0]
  obtain ⟨e0, e1, e2, e3, e4, e5⟩ := idx_facts0 ⟨0, by decide⟩
  intro a
  match a with
  | ⟨0, _⟩ =>
    show win0_2.index ⟨0, by decide⟩ (0 : Fin 2) * 800 ≤ (i 0).val ∧ (i 0).val < win0_2.index ⟨0, by decide⟩ (0 : Fin 2) * 800 + 800
    have hi : (i 0).val < 800 := (i 0).isLt
    omega
  | ⟨1, _⟩ =>
    show win0_2.index ⟨0, by decide⟩ (1 : Fin 2) * 1024 ≤ (i 1).val ∧ (i 1).val < win0_2.index ⟨0, by decide⟩ (1 : Fin 2) * 1024 + 1024
    have hi : (i 1).val < 1024 := (i 1).isLt
    omega

/-- The output array after the region: the projection of the two input arrays as the region finds them. -/
theorem final0 (c : Dev nD) : (dat0 (F := Ideal) V c).arrAt 2 cfg0.N = P0 (V c main_v2) (V c main_v0) :=
  (dat0 V c).arrAt_eq_of_cover 2 _ (fun t _ => flushed0_eq V c t) (cover0)

/-! ## Region 1: the projection on 200 rows -/

/-- The projection of two arrays: entry (r, v) is the row r of tanh X against the row v of Wh. -/
def P1 (X : Vec Ideal S200x512 .f32) (Wh : Vec Ideal S1024x512 .f32) : Vec Ideal S200x1024 .f32 :=
  fun j => ∑ k : Fin 512, Ideal.tanh (X (ix2 (j 0) k)) * Wh (ix2 (j 1) k)

theorem P1_ix2 (X : Vec Ideal S200x512 .f32) (Wh : Vec Ideal S1024x512 .f32) (r : Fin 200) (v : Fin 1024) :
    P1 X Wh (ix2 r v) = ∑ k : Fin 512, Ideal.tanh (X (ix2 r k)) * Wh (ix2 v k) := rfl

/-- The grid has one point, and every window's block there is block (0, 0): the whole array. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- What the point writes back is the block of the projection of the two arrays as the region finds them. -/
theorem flushed1_eq (c : Dev nD) (t : Fin cfg1.N) :
    (dat1 (F := Ideal) V c).flushed 2 t
      = ((cfg1.win 2).blk t).view.read (Elt Ideal) (P1 (V c main_v3) (V c main_v1)) := by
  show (cfg1.win 2).cut (grid1.coords t) ((dat1 V c).after 2 t) = _
  rw [after1_2]
  unfold out1_2
  rw [View.canon_unit_zero hz]
  simp only [View.ld_unit_zero (S := S200x512) hz, View.ld_unit_zero (S := S1024x512) hz]
  obtain ⟨e0, e1, e2, e3, e4, e5⟩ := idx_facts1 t
  funext j
  obtain ⟨r, v, rfl⟩ : ∃ (r : Fin 200) (v : Fin 1024), j = ix2 r v := ⟨j 0, j 1, eq_ix2 j⟩
  refine (ProjValue.pay1_apply _ _ r v).trans ?_
  show _ = P1 (V c main_v3) (V c main_v1) (((cfg1.win 2).blk t).view.emb (ix2 r v))
  have hout : ((cfg1.win 2).blk t).view.emb (ix2 r v) = ix2 r v := by
    funext a; apply Fin.ext
    match a with
    | ⟨0, _⟩ => show win1_2.index t (0 : Fin 2) * 200 + 1 * r.val = r.val; omega
    | ⟨1, _⟩ => show win1_2.index t (1 : Fin 2) * 1024 + 1 * v.val = v.val; omega
  rw [hout, P1_ix2]
  refine Finset.sum_congr rfl fun k _ => ?_
  have h0 : iblk1 V c 0 t (ix2 r k) = V c main_v3 (ix2 r k) := by
    show V c main_v3 (((cfg1.win 0).blk t).view.emb (ix2 r k)) = _
    refine congrArg _ ?_
    funext a; apply Fin.ext
    match a with
    | ⟨0, _⟩ => show win1_0.index t (0 : Fin 2) * 200 + 1 * r.val = r.val; omega
    | ⟨1, _⟩ => show win1_0.index t (1 : Fin 2) * 512 + 1 * k.val = k.val; omega
  have h1 : iblk1 V c 1 t (ix2 v k) = V c main_v1 (ix2 v k) := by
    show V c main_v1 (((cfg1.win 1).blk t).view.emb (ix2 v k)) = _
    refine congrArg _ ?_
    funext a; apply Fin.ext
    match a with
    | ⟨0, _⟩ => show win1_1.index t (0 : Fin 2) * 1024 + 1 * v.val = v.val; omega
    | ⟨1, _⟩ => show win1_1.index t (1 : Fin 2) * 512 + 1 * k.val = k.val; omega
  rw [h0, h1]

/-- An index of the output array is in the point's block iff each coordinate is in the block's range on its axis. -/
theorem mem_blk1 (t : Fin cfg1.N) (i : S200x1024.Idx) :
    i ∈ ((cfg1.win 2).blk t).view.set ↔ ∀ a : Fin 2, win1_2.index t a * S200x1024.size a ≤ (i a).val ∧ (i a).val < win1_2.index t a * S200x1024.size a + S200x1024.size a := by
  show i ∈ ((View.whole main_v6).slice (win1_2.rect t)).set ↔ _
  rw [View.set_slice_whole, Rect.mem_set_unit]
  exact Iff.rfl

/-- The one point's block covers the whole output array. -/
theorem cover1 (i : S200x1024.Idx) :
    ∃ t : Fin cfg1.N, (cfg1.win 2).flush t = true ∧ i ∈ ((cfg1.win 2).blk t).view.set := by
  refine ⟨⟨0, by decide⟩, flush1_2 _, ?_⟩
  rw [mem_blk1]
  obtain ⟨e0, e1, e2, e3, e4, e5⟩ := idx_facts1 ⟨0, by decide⟩
  intro a
  match a with
  | ⟨0, _⟩ =>
    show win1_2.index ⟨0, by decide⟩ (0 : Fin 2) * 200 ≤ (i 0).val ∧ (i 0).val < win1_2.index ⟨0, by decide⟩ (0 : Fin 2) * 200 + 200
    have hi : (i 0).val < 200 := (i 0).isLt
    omega
  | ⟨1, _⟩ =>
    show win1_2.index ⟨0, by decide⟩ (1 : Fin 2) * 1024 ≤ (i 1).val ∧ (i 1).val < win1_2.index ⟨0, by decide⟩ (1 : Fin 2) * 1024 + 1024
    have hi : (i 1).val < 1024 := (i 1).isLt
    omega

/-- The output array after the region: the projection of the two input arrays as the region finds them. -/
theorem final1 (c : Dev nD) : (dat1 (F := Ideal) V c).arrAt 2 cfg1.N = P1 (V c main_v3) (V c main_v1) :=
  (dat1 V c).arrAt_eq_of_cover 2 _ (fun t _ => flushed1_eq V c t) (cover1)

end Cert.KernelIdeal.ProjRegion

end
-- ==== Proof.LibRank3Rows.lean ====
/-
  Rank-3 arrays read at an entry: the casts that add a unit axis in the middle or at the end, the broadcasts of an
  array with unit axes to the full [a, b, c], and the maximum and the sum over the last axis at the ideal values.

  A cast keeps the row-major position, so [a, c] → [a, 1, c] at (i, 0, k) reads (i, k), and [a, b] → [a, b, 1] at
  (i, j, 0) reads (i, j). A broadcast reads the operand at the same coordinates, 0 on the operand's unit axes. The
  reduced index (i, j) with the last coordinate k put back is (i, j, k), so the maximum over the last axis at (i, j) is
  the fold of max from the accumulator's value over k of the entry (i, j, k), and the sum is the sum over k.
-/
import Idealize.ShloMosaic.Lib.ValueIdx
import Idealize.ShloMosaic.Lib.Pipeline.Value
import Idealize.ShloMosaic.PureOps.Ideal.Laws

noncomputable section

namespace Cert.Rank3Rows

open Idealize.ShloMosaic Idealize.ShloMosaic.ValueIdx

variable {α : Type}

/-! ## Casts -/

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-! ## Broadcasts to `[a, b, c]` -/

/-- `[a, 1, c]` broadcast to `[a, b, c]`: at `(i, j, k)` the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- `[1, b, c]` broadcast to `[a, b, c]`: at `(i, j, k)` the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- `[1, 1, c]` broadcast to `[a, b, c]`: at `(i, j, k)` the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- `[a, b, 1]` broadcast to `[a, b, c]`: at `(i, j, k)` the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## The last axis reduced -/

/-- The reduced index `(i, j)` with the last coordinate `k` put back is `(i, j, k)`. -/
theorem lift_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- The maximum over the last axis at `(i, j)`: the fold of `max` from the accumulator's value over the row's entries. -/
theorem multiReduction_max_last {a b c : ℕ} (src : FVec Ideal ⟨3, ![a, b, c]⟩ .f32) (acc : BitVec 32)
    (h : (⟨3, ![a, b, c]⟩ : Shape).Reduces [2] (⟨2, ![a, b]⟩ : Shape)) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) :=
  (Ideal.multiReduction_maximumf_single src acc h hφ hacc (ix2 i j)).trans
    (congrArg (fun f => (Finset.univ : Finset (Fin c)).fold max (Ideal.ofBits .f32 acc) f)
      (funext fun k => congrArg src (lift_last h i j k)))

/-- The sum over the last axis at `(i, j)`: the sum of the row's entries. -/
theorem multiReduction_add_last {a b c : ℕ} (src : FVec Ideal ⟨3, ![a, b, c]⟩ .f32) (acc : BitVec 32)
    (h : (⟨3, ![a, b, c]⟩ : Shape).Reduces [2] (⟨2, ![a, b]⟩ : Shape)) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last h i j k))

end Cert.Rank3Rows

end
-- ==== Proof.KJoint.lean ====
/-
  What the joint kernel stores, read at an entry, on the extended reals.

  From an encoder block x0 : [1,40,1024], a predictor block x1 : [1,50,1024] and the bias row x2 : [1,1024] the body
  forms the tile of logits  L[t,u,v] = (x0[0,t,v] + x1[0,u,v]) + x2[0,v],  takes each row's maximum m[t,u] (the fold of
  max from the word of -∞ over v), and stores  L[t,u,v] − (m[t,u] + log (∑ k, exp (L[t,u,k] − m[t,u]))).
  `rowLSE` is that last expression for one row; the tile's logits and the tail are read at an entry separately, over
  any vectors and any witnesses of the shape facts, and the payload is their composition.
-/
import proofs.«179335_j24481313587346_2_alg».proof.Proof.Gen.KernelIdeal.Skeleton
import proofs.«179335_j24481313587346_2_alg».proof.Proof.LibRank3Rows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.JointValue

open Cert.KernelIdeal Cert.KernelIdeal.Gen Idealize.ShloMosaic Idealize.ShloMosaic.ValueIdx Cert.Rank3Rows

/-- One row's log-softmax in the kernel's spelling, the row maximum folded from `b0`. -/
def rowLSE (row : Fin 1024 → EReal) (b0 : EReal) (v : Fin 1024) : EReal :=
  row v - ((Finset.univ : Finset (Fin 1024)).fold max b0 row
    + Ideal.log (∑ k : Fin 1024, Ideal.exp (row k - (Finset.univ : Finset (Fin 1024)).fold max b0 row)))

/-- The tile's logit at (t, u, v) from the three blocks. -/
def tileLogit (x0 : FVec Ideal S1x40x1024 .f32) (x1 : FVec Ideal S1x50x1024 .f32) (x2 : FVec Ideal S1x1024 .f32)
    (t : Fin 40) (u : Fin 50) (v : Fin 1024) : EReal :=
  (x0 (ix3 (0 : Fin 1) t v) + x1 (ix3 (0 : Fin 1) u v)) + x2 (ix2 (0 : Fin 1) v)

theorem exp_apply {s : Shape} (x : FVec Ideal s .f32) (i : s.Idx) : exp x i = Ideal.exp (x i) := rfl
theorem log_apply {s : Shape} (x : FVec Ideal s .f32) (i : s.Idx) : log x i = Ideal.log (x i) := rfl

/-- The two broadcast sums of the body at an entry: the encoder row t, the predictor row u and the bias, at column v. -/
theorem tile_logits_apply (x0 : FVec Ideal S1x40x1024 .f32) (x1 : FVec Ideal S1x50x1024 .f32) (x2 : FVec Ideal S1x1024 .f32)
    (h1 : S1x40x1024.ShapeCasts S40x1024) (h2 : S40x1024.ShapeCasts S40x1x1024) (h3 : S40x1x1024.Broadcasts S40x50x1024)
    (h4 : S1x50x1024.ShapeCasts S50x1024) (h5 : S50x1024.ShapeCasts S1x50x1024) (h6 : S1x50x1024.Broadcasts S40x50x1024)
    (h7 : S1x1024.ShapeCasts S1x1024) (h8 : S1x1024.ShapeCasts S1x1x1024) (h9 : S1x1x1024.Broadcasts S40x50x1024)
    (t : Fin 40) (u : Fin 50) (v : Fin 1024) :
    addf (addf (broadcastTo S40x50x1024 (shapeCast S40x1x1024 (shapeCast S40x1024 x0 h1) h2) h3)
               (broadcastTo S40x50x1024 (shapeCast S1x50x1024 (shapeCast S50x1024 x1 h4) h5) h6))
         (broadcastTo S40x50x1024 (shapeCast S1x1x1024 (shapeCast S1x1024 x2 h7) h8) h9) (ix3 t u v)
      = tileLogit x0 x1 x2 t u v := by
  rw [addf_apply, addf_apply, broadcastTo_a1c_abc_apply, shapeCast_ac_a1c_apply, shapeCast_1ab_ab_apply,
    broadcastTo_1bc_abc_apply, shapeCast_ab_1ab_apply, shapeCast_1ab_ab_apply,
    broadcastTo_11c_abc_apply, shapeCast_ab_1ab_apply, shapeCast_self]
  rfl

/-- The body's tail on any tile of logits, at an entry: the row's log-softmax, the maximum folded from the word of -∞. -/
theorem tile_tail_apply (L : FVec Ideal S40x50x1024 .f32)
    (hr : S40x50x1024.Reduces [2] S40x50) (hφ hφ' : FKind.Formats .f32)
    (hacc : (0xFF800000#32 : BitVec 32) = FKind.maximumf.neutral .f32 hφ)
    (hacc0 : (0x00000000#32 : BitVec 32) = FKind.add.neutral .f32 hφ')
    (hs : S40x50.ShapeCasts S40x50x1) (hb : S40x50x1.Broadcasts S40x50x1024) (hs' : S40x50x1024.ShapeCasts S1x40x50x1024)
    (t : Fin 40) (u : Fin 50) (v : Fin 1024) :
    shapeCast S1x40x50x1024
      (subf L (broadcastTo S40x50x1024
        (addf (shapeCast S40x50x1 (multiReduction .maximumf [2] S40x50 L 0xFF800000#32 hr hφ hacc) hs)
          (log (shapeCast S40x50x1 (multiReduction .add [2] S40x50
            (exp (subf L (broadcastTo S40x50x1024
              (shapeCast S40x50x1 (multiReduction .maximumf [2] S40x50 L 0xFF800000#32 hr hφ hacc) hs) hb)))
            0x00000000#32 hr hφ' hacc0) hs))) hb)) hs' (ix4 (0 : Fin 1) t u v)
      = rowLSE (fun k => L (ix3 t u k)) (Ideal.ofBits .f32 0xFF800000#32) v := by
  rw [shapeCast_abc_1abc_apply, subf_apply, broadcastTo_ab1_abc_apply, addf_apply, shapeCast_ab_ab1_apply,
    multiReduction_max_last, log_apply, shapeCast_ab_ab1_apply, multiReduction_add_last]
  simp only [exp_apply, subf_apply, broadcastTo_ab1_abc_apply, shapeCast_ab_ab1_apply]
  rw [multiReduction_max_last]
  rfl

/-- The body's stored value at entry (0, t, u, v). -/
theorem pay2_apply (x0 : Vec Ideal S1x40x1024 .f32) (x1 : Vec Ideal S1x50x1024 .f32) (x2 : Vec Ideal S1x1024 .f32)
    (t : Fin 40) (u : Fin 50) (v : Fin 1024) :
    k2_pay1 (F := Ideal) x0 x1 x2 (ix4 (0 : Fin 1) t u v)
      = rowLSE (fun k => tileLogit x0 x1 x2 t u k) (Ideal.ofBits .f32 0xFF800000#32) v := by
  unfold k2_pay1
  refine (tile_tail_apply _ _ _ _ _ _ _ _ _ t u v).trans ?_
  simp only [tile_logits_apply]

end Cert.KernelIdeal.JointValue

end
-- ==== Proof.KRegionJoint.lean ====
/-
  The joint region: its output array after the region, as one function of the region's three input arrays.

  The grid is 4 × 5: point (b, s) stages rows 40·s … 40·s+39 of batch b of the encoder projection A0 : [4,200,1024],
  all 50 rows of batch b of the predictor projection A1 : [4,50,1024] and the bias row A2 : [1,1024], and writes back
  block (b, s) of the [4,200,50,1024] result. Entry (b, t, u, v) of the result is therefore the log-softmax, in the
  kernel's spelling, of the row  k ↦ (A0[b,t,k] + A1[b,u,k]) + A2[0,k]  at v; row t of batch b is covered by the point
  (b, t / 40). Stated at any contents V of the buffers when the region is entered.
-/
import proofs.«179335_j24481313587346_2_alg».proof.Proof.Gen.KernelIdeal.Frame
import proofs.«179335_j24481313587346_2_alg».proof.Proof.KJoint
import Idealize.ShloMosaic.Lib.ValueIdx
import Idealize.ShloMosaic.Lib.Pipeline.Value

set_option maxRecDepth 16384

noncomputable section

namespace Cert.KernelIdeal.JointRegion

open Cert.KernelIdeal Cert.KernelIdeal.Gen Idealize.ShloMosaic Idealize.ShloMosaic.TcCoe Idealize.ShloMosaic.ValueIdx Idealize.SL.Sem
open Cert.KernelIdeal.JointValue
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The joint of three arrays: entry (b, t, u, v) is the log-softmax at v of the row of sums. -/
def J (A0 : Vec Ideal S4x200x1024 .f32) (A1 : Vec Ideal S4x50x1024 .f32) (A2 : Vec Ideal S1x1024 .f32) :
    Vec Ideal S4x200x50x1024 .f32 :=
  fun i => rowLSE (fun k => (A0 (ix3 (i 0) (i 1) k) + A1 (ix3 (i 0) (i 2) k)) + A2 (ix2 (0 : Fin 1) k))
    (Ideal.ofBits .f32 0xFF800000#32) (i 3)

/-- `J` at an index whose coordinates are known. -/
theorem J_of_coords (A0 : Vec Ideal S4x200x1024 .f32) (A1 : Vec Ideal S4x50x1024 .f32) (A2 : Vec Ideal S1x1024 .f32)
    (i : S4x200x50x1024.Idx) (b : Fin 4) (t : Fin 200) (u : Fin 50) (v : Fin 1024)
    (h0 : (i 0).val = b.val) (h1 : (i 1).val = t.val) (h2 : (i 2).val = u.val) (h3 : (i 3).val = v.val) :
    J A0 A1 A2 i = rowLSE (fun k => (A0 (ix3 b t k) + A1 (ix3 b u k)) + A2 (ix2 (0 : Fin 1) k))
      (Ideal.ofBits .f32 0xFF800000#32) v := by
  have e : i = ix4 b t u v := funext fun a => Fin.ext (by
    match a with
    | ⟨0, _⟩ => exact h0
    | ⟨1, _⟩ => exact h1
    | ⟨2, _⟩ => exact h2
    | ⟨3, _⟩ => exact h3)
  rw [e]; rfl

/-- The printed index maps, decided over the 20 points: the encoder block moves with the output block on the batch and
    row-tile axes, the predictor block on the batch axis, the bias block stays, and the block indices stay in range. -/
theorem idx_facts2 : ∀ t : Fin cfg2.N,
    win2_0.index t (0 : Fin 3) = win2_3.index t (0 : Fin 4) ∧ win2_0.index t (1 : Fin 3) = win2_3.index t (1 : Fin 4)
    ∧ win2_0.index t (2 : Fin 3) = 0
    ∧ win2_1.index t (0 : Fin 3) = win2_3.index t (0 : Fin 4) ∧ win2_1.index t (1 : Fin 3) = 0 ∧ win2_1.index t (2 : Fin 3) = 0
    ∧ win2_2.index t (0 : Fin 2) = 0 ∧ win2_2.index t (1 : Fin 2) = 0
    ∧ win2_3.index t (2 : Fin 4) = 0 ∧ win2_3.index t (3 : Fin 4) = 0
    ∧ win2_3.index t (0 : Fin 4) ≤ 3 ∧ win2_3.index t (1 : Fin 4) ≤ 4 :=
  (by decide +kernel : ∀ t : Fin grid2.N, _)

/-- Every output block (b, s) is some point's. -/
theorem idx_onto2 : ∀ (q0 : Fin 4) (q1 : Fin 5), ∃ t : Fin cfg2.N, win2_3.index t = ![q0.val, q1.val, 0, 0] :=
  (by decide +kernel : ∀ (q0 : Fin 4) (q1 : Fin 5), ∃ t : Fin grid2.N, win2_3.index t = ![q0.val, q1.val, 0, 0])

/-- What point `t` writes back is block `t` of the joint of the three arrays as the region finds them. -/
theorem flushed2_eq (c : Dev nD) (t : Fin cfg2.N) :
    (dat2 (F := Ideal) V c).flushed 3 t
      = ((cfg2.win 3).blk t).view.read (Elt Ideal) (J (V c main_v5) (V c main_v7) (V c main_v8)) := by
  show (cfg2.win 3).cut (grid2.coords t) ((dat2 V c).after 3 t) = _
  rw [after2_3]
  unfold out2_3
  rw [View.canon_unit_zero hz4]
  simp only [View.ld_unit_zero (S := S1x40x1024) hz3, View.ld_unit_zero (S := S1x50x1024) hz3, View.ld_unit_zero (S := S1x1024) hz2]
  obtain ⟨e0, e1, e2, e3, e4, e5, e6, e7, e8, e9, e10, e11⟩ := idx_facts2 t
  funext j
  obtain ⟨z, t', u, v, rfl⟩ : ∃ (z : Fin 1) (t' : Fin 40) (u : Fin 50) (v : Fin 1024), j = ix4 z t' u v :=
    ⟨j 0, j 1, j 2, j 3, eq_ix4 j⟩
  obtain rfl : z = 0 := Fin.ext (by have := z.isLt; omega)
  refine (pay2_apply _ _ _ t' u v).trans ?_
  show _ = J (V c main_v5) (V c main_v7) (V c main_v8) (((cfg2.win 3).blk t).view.emb (ix4 (0 : Fin 1) t' u v))
  have ht' : t'.val < 40 := t'.isLt
  refine Eq.trans ?_ (J_of_coords _ _ _ _ (⟨win2_3.index t (0 : Fin 4), by omega⟩ : Fin 4)
    (⟨win2_3.index t (1 : Fin 4) * 40 + t'.val, by omega⟩ : Fin 200) u v ?_ ?_ ?_ ?_).symm
  · refine congrArg (fun f => rowLSE f (Ideal.ofBits .f32 0xFF800000#32) v) (funext fun k => ?_)
    unfold tileLogit
    have h0 : iblk2 V c 0 t (ix3 (0 : Fin 1) t' k)
        = V c main_v5 (ix3 (⟨win2_3.index t (0 : Fin 4), by omega⟩ : Fin 4) (⟨win2_3.index t (1 : Fin 4) * 40 + t'.val, by omega⟩ : Fin 200) k) := by
      show V c main_v5 (((cfg2.win 0).blk t).view.emb (ix3 (0 : Fin 1) t' k)) = _
      refine congrArg _ ?_
      funext a; apply Fin.ext
      match a with
      | ⟨0, _⟩ => show win2_0.index t (0 : Fin 3) * 1 + 1 * 0 = win2_3.index t (0 : Fin 4); omega
      | ⟨1, _⟩ => show win2_0.index t (1 : Fin 3) * 40 + 1 * t'.val = win2_3.index t (1 : Fin 4) * 40 + t'.val; omega
      | ⟨2, _⟩ => show win2_0.index t (2 : Fin 3) * 1024 + 1 * k.val = k.val; omega
    have h1 : iblk2 V c 1 t (ix3 (0 : Fin 1) u k)
        = V c main_v7 (ix3 (⟨win2_3.index t (0 : Fin 4), by omega⟩ : Fin 4) u k) := by
      show V c main_v7 (((cfg2.win 1).blk t).view.emb (ix3 (0 : Fin 1) u k)) = _
      refine congrArg _ ?_
      funext a; apply Fin.ext
      match a with
      | ⟨0, _⟩ => show win2_1.index t (0 : Fin 3) * 1 + 1 * 0 = win2_3.index t (0 : Fin 4); omega
      | ⟨1, _⟩ => show win2_1.index t (1 : Fin 3) * 50 + 1 * u.val = u.val; omega
      | ⟨2, _⟩ => show win2_1.index t (2 : Fin 3) * 1024 + 1 * k.val = k.val; omega
    have h2 : iblk2 V c 2 t (ix2 (0 : Fin 1) k) = V c main_v8 (ix2 (0 : Fin 1) k) := by
      show V c main_v8 (((cfg2.win 2).blk t).view.emb (ix2 (0 : Fin 1) k)) = _
      refine congrArg _ ?_
      funext a; apply Fin.ext
      match a with
      | ⟨0, _⟩ => show win2_2.index t (0 : Fin 2) * 1 + 1 * 0 = 0; omega
      | ⟨1, _⟩ => show win2_2.index t (1 : Fin 2) * 1024 + 1 * k.val = k.val; omega
    rw [h0, h1, h2]
  · show win2_3.index t (0 : Fin 4) * 1 + 1 * 0 = win2_3.index t (0 : Fin 4); omega
  · show win2_3.index t (1 : Fin 4) * 40 + 1 * t'.val = win2_3.index t (1 : Fin 4) * 40 + t'.val; omega
  · show win2_3.index t (2 : Fin 4) * 50 + 1 * u.val = u.val; omega
  · show win2_3.index t (3 : Fin 4) * 1024 + 1 * v.val = v.val; omega

/-- An index of the result array is in point `t`'s block iff each coordinate is in the block's range on its axis. -/
theorem mem_blk2 (t : Fin cfg2.N) (i : S4x200x50x1024.Idx) :
    i ∈ ((cfg2.win 3).blk t).view.set ↔ ∀ a : Fin 4, win2_3.index t a * S1x40x50x1024.size a ≤ (i a).val ∧ (i a).val < win2_3.index t a * S1x40x50x1024.size a + S1x40x50x1024.size a := by
  show i ∈ ((View.whole main_v9).slice (win2_3.rect t)).set ↔ _
  rw [View.set_slice_whole, Rect.mem_set_unit]
  exact Iff.rfl

/-- Every index of the result array is in some point's block: row t of batch b in the block of the point (b, t / 40). -/
theorem cover2 (i : S4x200x50x1024.Idx) :
    ∃ t : Fin cfg2.N, (cfg2.win 3).flush t = true ∧ i ∈ ((cfg2.win 3).blk t).view.set := by
  have hi0 : (i 0).val < 4 := (i 0).isLt
  have hi1 : (i 1).val < 200 := (i 1).isLt
  have hi2 : (i 2).val < 50 := (i 2).isLt
  have hi3 : (i 3).val < 1024 := (i 3).isLt
  obtain ⟨t, ht⟩ := idx_onto2 ⟨(i 0).val, hi0⟩ ⟨(i 1).val / 40, by omega⟩
  have q0 : win2_3.index t (0 : Fin 4) = (i 0).val := congrFun ht 0
  have q1 : win2_3.index t (1 : Fin 4) = (i 1).val / 40 := congrFun ht 1
  have q2 : win2_3.index t (2 : Fin 4) = 0 := congrFun ht 2
  have q3 : win2_3.index t (3 : Fin 4) = 0 := congrFun ht 3
  refine ⟨t, flush2_3 t, ?_⟩
  rw [mem_blk2]
  intro a
  match a with
  | ⟨0, _⟩ => show win2_3.index t (0 : Fin 4) * 1 ≤ (i 0).val ∧ (i 0).val < win2_3.index t (0 : Fin 4) * 1 + 1; omega
  | ⟨1, _⟩ => show win2_3.index t (1 : Fin 4) * 40 ≤ (i 1).val ∧ (i 1).val < win2_3.index t (1 : Fin 4) * 40 + 40; omega
  | ⟨2, _⟩ => show win2_3.index t (2 : Fin 4) * 50 ≤ (i 2).val ∧ (i 2).val < win2_3.index t (2 : Fin 4) * 50 + 50; omega
  | ⟨3, _⟩ => show win2_3.index t (3 : Fin 4) * 1024 ≤ (i 3).val ∧ (i 3).val < win2_3.index t (3 : Fin 4) * 1024 + 1024; omega

/-- The result array after the region: the joint of the three input arrays as the region finds them. -/
theorem final2 (c : Dev nD) :
    (dat2 (F := Ideal) V c).arrAt 3 cfg2.N = J (V c main_v5) (V c main_v7) (V c main_v8) :=
  (dat2 V c).arrAt_eq_of_cover 3 _ (fun t _ => flushed2_eq V c t) (cover2)

end Cert.KernelIdeal.JointRegion

end
-- ==== Proof.LibLogSoftmax.lean ====
/-
  Log-softmax over one finite row, on the extended reals.

  For a row `L : ι → EReal` all of whose entries are real numbers, with `m` the fold of `max` over the row from
  `⊥`, the two usual spellings of the log-softmax agree at every entry `v`:

    L v − (m + log (∑ w, exp (L w − m)))   =   (L v − max ⊥ m) − log (∑ w, exp (L w − max ⊥ m)).

  `max ⊥ m = m` holds in any order with a bottom. The rest is the identity `a − (m + ℓ) = (a − m) − ℓ`, which on the
  extended reals needs `a` and `m` real (at `m = ⊤` the two sides differ) but holds for EVERY `ℓ`, infinite or not:
  so nothing has to be known about the logarithm of the sum. That `m` is real is where the row's being real and
  nonempty is used: the fold of `max` from `⊥` over real entries is below `⊤`, and above `⊥` as soon as there is
  one entry.
-/
import Mathlib.Data.EReal.Basic
import Mathlib.Data.EReal.Operations
import Mathlib.Data.Finset.Fold
import Mathlib.Algebra.BigOperators.Group.Finset.Basic

namespace Cert.LogSoftmaxLaw

/-- `a − (m + ℓ) = (a − m) − ℓ` for real `a`, `m` and any extended real `ℓ`. -/
theorem sub_add_eq_sub_sub (a m : ℝ) (l : EReal) :
    (a : EReal) - ((m : EReal) + l) = ((a : EReal) - (m : EReal)) - l := by
  induction l using EReal.rec with
  | bot => simp [sub_eq_add_neg]
  | coe x =>
    rw [← EReal.coe_add, ← EReal.coe_sub, ← EReal.coe_sub, ← EReal.coe_sub]
    exact congrArg _ (by ring)
  | top => simp [sub_eq_add_neg]

/-- The fold of `max` from `⊥` over a nonempty finite row of real numbers is a real number. -/
theorem fold_max_real {ι : Type*} [Fintype ι] [Nonempty ι] (L : ι → EReal) (hL : ∀ i, ∃ r : ℝ, L i = (r : EReal)) :
    ∃ r : ℝ, (Finset.univ : Finset ι).fold max (⊥ : EReal) L = (r : EReal) := by
  have h1 : (Finset.univ : Finset ι).fold max (⊥ : EReal) L ≠ ⊤ := by
    apply ne_of_lt
    rw [Finset.fold_max_lt]
    refine ⟨bot_lt_top, fun i _ => ?_⟩
    obtain ⟨r, hr⟩ := hL i
    rw [hr]; exact EReal.coe_lt_top r
  have h2 : (Finset.univ : Finset ι).fold max (⊥ : EReal) L ≠ ⊥ := by
    apply ne_of_gt
    rw [Finset.lt_fold_max]
    right
    obtain ⟨i⟩ := ‹Nonempty ι›
    obtain ⟨r, hr⟩ := hL i
    exact ⟨i, Finset.mem_univ _, by rw [hr]; exact EReal.bot_lt_coe r⟩
  exact ⟨_, (EReal.coe_toReal h1 h2).symm⟩

/-- The two spellings of a row's log-softmax agree on a nonempty real row, whatever `exp` and `log` are. -/
theorem forms_agree {ι : Type*} [Fintype ι] [Nonempty ι] (ex lg : EReal → EReal) (L : ι → EReal)
    (hL : ∀ i, ∃ r : ℝ, L i = (r : EReal)) (v : ι) :
    L v - ((Finset.univ : Finset ι).fold max (⊥ : EReal) L
        + lg (∑ w, ex (L w - (Finset.univ : Finset ι).fold max (⊥ : EReal) L)))
      = (L v - max (⊥ : EReal) ((Finset.univ : Finset ι).fold max (⊥ : EReal) L))
        - lg (∑ w, ex (L w - max (⊥ : EReal) ((Finset.univ : Finset ι).fold max (⊥ : EReal) L))) := by
  rw [max_eq_right (bot_le : (⊥ : EReal) ≤ _)]
  obtain ⟨m, hm⟩ := fold_max_real L hL
  obtain ⟨a, ha⟩ := hL v
  rw [hm, ha]
  exact sub_add_eq_sub_sub a m _

end Cert.LogSoftmaxLaw
-- ==== Proof.Spec.lean ====
/-
  The joint network's result as one function of its four argument arrays, on the extended reals.

  With `e : [4,200,512]`, `p : [4,50,512]`, `W : [1024,1024]`, `bias : [1024]`:

    encProj b t v  = ∑ k < 512, tanh (e[b,t,k]) · W[v, k]            (the left half of row v of W)
    predProj b u v = ∑ k < 512, tanh (p[b,u,k]) · W[v, 512 + k]      (the right half)
    logit b t u v  = (encProj b t v + predProj b u v) + bias[v]
    rowMax b t u   = the fold of max from ⊥ over v of logit b t u v
    g b t u v      = logit b t u v − (rowMax b t u + log (∑ w, exp (logit b t u w − rowMax b t u)))

  `g` is how the kernel spells the log-softmax of a row of logits; `gRef` is jax's spelling, which subtracts the
  maximum first, `(logit − M) − log (∑ exp (logit − M))` with `M = max ⊥ rowMax`. They agree when the inputs are real
  numbers: then every logit is real (tanh of a real is real, a finite sum of products of reals is real) and the row
  is nonempty, which is all the law of LibLogSoftmax asks.
-/
import Idealize.ShloMosaic.PureOps.Ideal
import Idealize.ShloMosaic.Lib.ValueIdx
import proofs.«179335_j24481313587346_2_alg».proof.Proof.LibLogSoftmax

noncomputable section

namespace Cert.JointSpec

open Idealize.ShloMosaic Idealize.ShloMosaic.ValueIdx

abbrev SE : Shape := ⟨3, ![4, 200, 512]⟩
abbrev SP : Shape := ⟨3, ![4, 50, 512]⟩
abbrev SW : Shape := ⟨2, ![1024, 1024]⟩
abbrev SB : Shape := ⟨1, ![1024]⟩
abbrev SO : Shape := ⟨4, ![4, 200, 50, 1024]⟩

/-- Column `k` of the left half of a row of `W`. -/
def wl (k : Fin 512) : Fin 1024 := ⟨k.val, by have := k.isLt; omega⟩
/-- Column `k` of the right half of a row of `W`. -/
def wr (k : Fin 512) : Fin 1024 := ⟨512 + k.val, by have := k.isLt; omega⟩

variable (e : SE.Idx → EReal) (p : SP.Idx → EReal) (W : SW.Idx → EReal) (bias : SB.Idx → EReal)

def encProj (b : Fin 4) (t : Fin 200) (v : Fin 1024) : EReal :=
  ∑ k : Fin 512, Ideal.tanh (e (ix3 b t k)) * W (ix2 v (wl k))

def predProj (b : Fin 4) (u : Fin 50) (v : Fin 1024) : EReal :=
  ∑ k : Fin 512, Ideal.tanh (p (ix3 b u k)) * W (ix2 v (wr k))

def logit (b : Fin 4) (t : Fin 200) (u : Fin 50) (v : Fin 1024) : EReal :=
  (encProj e W b t v + predProj p W b u v) + bias (ix1 v)

def rowMax (b : Fin 4) (t : Fin 200) (u : Fin 50) : EReal :=
  (Finset.univ : Finset (Fin 1024)).fold max (⊥ : EReal) (fun v => logit e p W bias b t u v)

/-- The kernel's spelling of the result, by coordinates. -/
def g (b : Fin 4) (t : Fin 200) (u : Fin 50) (v : Fin 1024) : EReal :=
  logit e p W bias b t u v
    - (rowMax e p W bias b t u
        + Ideal.log (∑ w : Fin 1024, Ideal.exp (logit e p W bias b t u w - rowMax e p W bias b t u)))

/-- jax's spelling of the same entry. -/
def gRef (b : Fin 4) (t : Fin 200) (u : Fin 50) (v : Fin 1024) : EReal :=
  (logit e p W bias b t u v - max (⊥ : EReal) (rowMax e p W bias b t u))
    - Ideal.log (∑ w : Fin 1024, Ideal.exp (logit e p W bias b t u w - max (⊥ : EReal) (rowMax e p W bias b t u)))

/-- The result array. -/
def G : SO.Idx → EReal := fun i => g e p W bias (i 0) (i 1) (i 2) (i 3)

theorem G_ix4 (b : Fin 4) (t : Fin 200) (u : Fin 50) (v : Fin 1024) :
    G e p W bias (ix4 b t u v) = g e p W bias b t u v := rfl

/-- The word of `-∞` is the bottom of the extended reals. -/
theorem negInf : Ideal.ofBits .f32 0xFF800000#32 = (⊥ : EReal) := by simp [Ideal.ofBits, Ideal.ieee]

/-! ## Real inputs give real logits -/

/-- A finite sum of real numbers, taken in the extended reals, is a real number. -/
theorem sum_real {ι : Type*} (s : Finset ι) (f : ι → EReal) (hf : ∀ i, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih
    obtain ⟨x, hx⟩ := hf a
    exact ⟨x + r, by rw [Finset.sum_insert ha, hr, hx, EReal.coe_add]⟩

/-- `tanh x · w` is real when `x` and `w` are. -/
theorem tanh_mul_real {x w : EReal} (hx : ∃ r : ℝ, x = (r : EReal)) (hw : ∃ r : ℝ, w = (r : EReal)) :
    ∃ r : ℝ, Ideal.tanh x * w = (r : EReal) := by
  obtain ⟨a, rfl⟩ := hx
  obtain ⟨c, rfl⟩ := hw
  exact ⟨Real.tanh a * c, by rw [Ideal.tanh_coe, EReal.coe_mul]⟩

variable {e p W bias}

theorem logit_real (he : ∀ i, ∃ r : ℝ, e i = (r : EReal)) (hp : ∀ i, ∃ r : ℝ, p i = (r : EReal))
    (hW : ∀ i, ∃ r : ℝ, W i = (r : EReal)) (hb : ∀ i, ∃ r : ℝ, bias i = (r : EReal))
    (b : Fin 4) (t : Fin 200) (u : Fin 50) (v : Fin 1024) :
    ∃ r : ℝ, logit e p W bias b t u v = (r : EReal) := by
  obtain ⟨x, hx⟩ := sum_real Finset.univ (fun k : Fin 512 => Ideal.tanh (e (ix3 b t k)) * W (ix2 v (wl k)))
    (fun k => tanh_mul_real (he _) (hW _))
  obtain ⟨y, hy⟩ := sum_real Finset.univ (fun k : Fin 512 => Ideal.tanh (p (ix3 b u k)) * W (ix2 v (wr k)))
    (fun k => tanh_mul_real (hp _) (hW _))
  obtain ⟨z, hz⟩ := hb (ix1 v)
  refine ⟨x + y + z, ?_⟩
  unfold logit encProj predProj
  rw [hx, hy, hz, EReal.coe_add, EReal.coe_add]

/-- On real inputs the kernel's spelling and jax's are one function. -/
theorem g_eq_gRef (he : ∀ i, ∃ r : ℝ, e i = (r : EReal)) (hp : ∀ i, ∃ r : ℝ, p i = (r : EReal))
    (hW : ∀ i, ∃ r : ℝ, W i = (r : EReal)) (hb : ∀ i, ∃ r : ℝ, bias i = (r : EReal))
    (b : Fin 4) (t : Fin 200) (u : Fin 50) (v : Fin 1024) :
    g e p W bias b t u v = gRef e p W bias b t u v :=
  Cert.LogSoftmaxLaw.forms_agree Ideal.exp Ideal.log (fun w : Fin 1024 => logit e p W bias b t u w)
    (fun w => logit_real he hp hW hb b t u w) v

end Cert.JointSpec

end
-- ==== Proof.KValue.lean ====
/-
  The idealized kernel's result array as one function of the launch arguments.

  The three regions are joined by host reshapes that keep the row-major position. Region 0 is handed enc reshaped to
  [800,512] (row 200·b + t is enc[b,t,·]) and the left half of W's rows, so its output, reshaped to [4,200,1024], holds
  encProj b t v; region 1 is handed pred reshaped to [200,512] (row 50·b + u) and the right half, so its output
  reshaped to [4,50,1024] holds predProj b u v; region 2 is handed those two and the bias as one row. Its output is the
  program's result: G of the four arguments (Spec).
-/
import proofs.«179335_j24481313587346_2_alg».proof.Proof.Gen.KernelIdeal.Frame
import proofs.«179335_j24481313587346_2_alg».proof.Proof.KRun
import proofs.«179335_j24481313587346_2_alg».proof.Proof.KRegionProj
import proofs.«179335_j24481313587346_2_alg».proof.Proof.KRegionJoint
import proofs.«179335_j24481313587346_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.WholeValue

open Cert.KernelIdeal Cert.KernelIdeal.Gen Idealize.ShloMosaic Idealize.ShloMosaic.TcCoe Idealize.ShloMosaic.ValueIdx Idealize.SL.Sem
open Idealize.ShloMosaic.StableHlo
open Cert.JointSpec (wl wr)

variable (m : (ℓ : Loc nD τ sig) → Buf (Elt Ideal) ℓ) (ρ : Dev nD → PrngReg)

/-! ## The buffers, named at their types -/

/-- The four arguments as launched. -/
abbrev E (c : Dev nD) : Vec Ideal S4x200x512 .f32 := m ((c : Thread nD τ).loc main_arg0)
abbrev P (c : Dev nD) : Vec Ideal S4x50x512 .f32 := m ((c : Thread nD τ).loc main_arg1)
abbrev Wm (c : Dev nD) : Vec Ideal S1024x1024 .f32 := m ((c : Thread nD τ).loc main_arg2)
abbrev Bi (c : Dev nD) : Vec Ideal S1024 .f32 := m ((c : Thread nD τ).loc main_arg3)
/-- What the first stretch of host operations leaves: the inputs reshaped, the two halves of W's rows. -/
abbrev X0 (c : Dev nD) : Vec Ideal S800x512 .f32 := V1 m ρ c main_v2
abbrev X1 (c : Dev nD) : Vec Ideal S200x512 .f32 := V1 m ρ c main_v3
abbrev Wl (c : Dev nD) : Vec Ideal S1024x512 .f32 := V1 m ρ c main_v0
abbrev Wr (c : Dev nD) : Vec Ideal S1024x512 .f32 := V1 m ρ c main_v1
/-- What region 2 is handed. -/
abbrev A0 (c : Dev nD) : Vec Ideal S4x200x1024 .f32 := V5 m ρ c main_v5
abbrev A1 (c : Dev nD) : Vec Ideal S4x50x1024 .f32 := V5 m ρ c main_v7
abbrev A2 (c : Dev nD) : Vec Ideal S1x1024 .f32 := V5 m ρ c main_v8

/-! ## The first stretch: two slices of W and the two reshapes -/

/-- Row 200·b + t of the reshaped encoder input is enc[b, t, ·]. -/
theorem X0_apply (c : Dev nD) (b : Fin 4) (t : Fin 200) (k : Fin 512) (r : Fin 800) (hr : r.val = b.val * 200 + t.val) :
    X0 m ρ c (ix2 r k) = E m c (ix3 b t k) := by
  show StableHlo.after hostOps0 (W0 m ρ c) (Proc.devRef .tc main_v2) (ix2 r k) = _
  after_results
  exact shapeCast_apply (s := S4x200x512) (t := S800x512) _ _ (ix2 r k) (ix3 b t k) (by
    show ((⟨3, ![4, 200, 512]⟩ : Shape).rowMajor (ix3 b t k)).val = ((⟨2, ![800, 512]⟩ : Shape).rowMajor (ix2 r k)).val
    rw [Shape.rowMajor_val_three, Shape.rowMajor_val_two]
    show (b.val * 200 + t.val) * 512 + k.val = r.val * 512 + k.val
    rw [hr])

/-- Row 50·b + u of the reshaped predictor input is pred[b, u, ·]. -/
theorem X1_apply (c : Dev nD) (b : Fin 4) (u : Fin 50) (k : Fin 512) (r : Fin 200) (hr : r.val = b.val * 50 + u.val) :
    X1 m ρ c (ix2 r k) = P m c (ix3 b u k) := by
  show StableHlo.after hostOps0 (W0 m ρ c) (Proc.devRef .tc main_v3) (ix2 r k) = _
  after_results
  exact shapeCast_apply (s := S4x50x512) (t := S200x512) _ _ (ix2 r k) (ix3 b u k) (by
    show ((⟨3, ![4, 50, 512]⟩ : Shape).rowMajor (ix3 b u k)).val = ((⟨2, ![200, 512]⟩ : Shape).rowMajor (ix2 r k)).val
    rw [Shape.rowMajor_val_three, Shape.rowMajor_val_two]
    show (b.val * 50 + u.val) * 512 + k.val = r.val * 512 + k.val
    rw [hr])

/-- The first slice is the left half of W's rows. -/
theorem Wl_apply (c : Dev nD) (v : Fin 1024) (k : Fin 512) : Wl m ρ c (ix2 v k) = Wm m c (ix2 v (wl k)) := by
  show StableHlo.after hostOps0 (W0 m ρ c) (Proc.devRef .tc main_v0) (ix2 v k) = _
  after_results
  exact extractStridedSlice_apply (s := S1024x1024) (t := S1024x512) _ _ _ (ix2 v k) (ix2 v (wl k)) (fun a => match a with
    | ⟨0, _⟩ => by show v.val = 0 + v.val; omega
    | ⟨1, _⟩ => by show k.val = 0 + k.val; omega)

/-- The second slice is the right half of W's rows. -/
theorem Wr_apply (c : Dev nD) (v : Fin 1024) (k : Fin 512) : Wr m ρ c (ix2 v k) = Wm m c (ix2 v (wr k)) := by
  show StableHlo.after hostOps0 (W0 m ρ c) (Proc.devRef .tc main_v1) (ix2 v k) = _
  after_results
  exact extractStridedSlice_apply (s := S1024x1024) (t := S1024x512) _ _ _ (ix2 v k) (ix2 v (wr k)) (fun a => match a with
    | ⟨0, _⟩ => by show v.val = 0 + v.val; omega
    | ⟨1, _⟩ => by show 512 + k.val = 512 + k.val; rfl)

/-! ## What the regions are handed, and what they leave -/

/-- Region 1's inputs are untouched by region 0 and by the reshape between them. -/
theorem V3_v3 (c : Dev nD) : V3 m ρ c main_v3 = V1 m ρ c main_v3 := by
  show StableHlo.after hostOps1 (W2 m ρ c) (Proc.devRef .tc main_v3) = _
  after_results
  exact W2_of_ne m ρ c main_v3 (by decide)
theorem V3_v1 (c : Dev nD) : V3 m ρ c main_v1 = V1 m ρ c main_v1 := by
  show StableHlo.after hostOps1 (W2 m ρ c) (Proc.devRef .tc main_v1) = _
  after_results
  exact W2_of_ne m ρ c main_v1 (by decide)

/-- Region 0's output as the reshape after it finds it. -/
theorem out0_eq (c : Dev nD) :
    (W2 m ρ c (Proc.devRef .tc main_v4) : Vec Ideal S800x1024 .f32) = ProjRegion.P0 (X0 m ρ c) (Wl m ρ c) :=
  (W2_arr m ρ c 2).trans (ProjRegion.final0 (V1 m ρ) c)

/-- Region 1's output as the reshape after it finds it. -/
theorem out1_eq (c : Dev nD) :
    (W4 m ρ c (Proc.devRef .tc main_v6) : Vec Ideal S200x1024 .f32) = ProjRegion.P1 (X1 m ρ c) (Wr m ρ c) := by
  refine (W4_arr m ρ c 2).trans ((ProjRegion.final1 (V3 m ρ) c).trans ?_)
  rw [V3_v3, V3_v1]

/-- The encoder projection, reshaped, as region 2 finds it. -/
theorem A0_apply (c : Dev nD) (b : Fin 4) (t : Fin 200) (v : Fin 1024) :
    A0 m ρ c (ix3 b t v) = JointSpec.encProj (E m c) (Wm m c) b t v := by
  show StableHlo.after hostOps2 (W4 m ρ c) (Proc.devRef .tc main_v5) (ix3 b t v) = _
  after_results
  rw [W4_of_ne m ρ c main_v5 (by decide)]
  show StableHlo.after hostOps1 (W2 m ρ c) (Proc.devRef .tc main_v5) (ix3 b t v) = _
  after_results
  have hr : b.val * 200 + t.val < 800 := by have := b.isLt; have := t.isLt; omega
  refine (shapeCast_apply (s := S800x1024) (t := S4x200x1024) (α := EReal) _ _ (ix3 b t v)
    (ix2 (⟨b.val * 200 + t.val, hr⟩ : Fin 800) v) (by
      show ((⟨2, ![800, 1024]⟩ : Shape).rowMajor (ix2 (⟨b.val * 200 + t.val, hr⟩ : Fin 800) v)).val
        = ((⟨3, ![4, 200, 1024]⟩ : Shape).rowMajor (ix3 b t v)).val
      rw [Shape.rowMajor_val_two, Shape.rowMajor_val_three]; rfl)).trans ?_
  rw [out0_eq, ProjRegion.P0_ix2]
  unfold JointSpec.encProj
  refine Finset.sum_congr rfl fun k _ => ?_
  rw [X0_apply m ρ c b t k _ rfl, Wl_apply m ρ c v k]

/-- The predictor projection, reshaped, as region 2 finds it. -/
theorem A1_apply (c : Dev nD) (b : Fin 4) (u : Fin 50) (v : Fin 1024) :
    A1 m ρ c (ix3 b u v) = JointSpec.predProj (P m c) (Wm m c) b u v := by
  show StableHlo.after hostOps2 (W4 m ρ c) (Proc.devRef .tc main_v7) (ix3 b u v) = _
  after_results
  have hr : b.val * 50 + u.val < 200 := by have := b.isLt; have := u.isLt; omega
  refine (shapeCast_apply (s := S200x1024) (t := S4x50x1024) (α := EReal) _ _ (ix3 b u v)
    (ix2 (⟨b.val * 50 + u.val, hr⟩ : Fin 200) v) (by
      show ((⟨2, ![200, 1024]⟩ : Shape).rowMajor (ix2 (⟨b.val * 50 + u.val, hr⟩ : Fin 200) v)).val
        = ((⟨3, ![4, 50, 1024]⟩ : Shape).rowMajor (ix3 b u v)).val
      rw [Shape.rowMajor_val_two, Shape.rowMajor_val_three]; rfl)).trans ?_
  rw [out1_eq, ProjRegion.P1_ix2]
  unfold JointSpec.predProj
  refine Finset.sum_congr rfl fun k _ => ?_
  rw [X1_apply m ρ c b u k _ rfl, Wr_apply m ρ c v k]

/-- The bias reaches region 2's stretch as launched. -/
theorem W4_arg3 (c : Dev nD) : W4 m ρ c (Proc.devRef .tc main_arg3) = m ((c : Thread nD τ).loc main_arg3) :=
  calc W4 m ρ c (Proc.devRef .tc main_arg3)
      _ = W3 m ρ c (Proc.devRef .tc main_arg3) := W4_of_ne m ρ c main_arg3 (by decide)
      _ = W2 m ρ c (Proc.devRef .tc main_arg3) := by
          show StableHlo.after hostOps1 (W2 m ρ c) (Proc.devRef .tc main_arg3) = _
          after_results
      _ = W1 m ρ c (Proc.devRef .tc main_arg3) := W2_of_ne m ρ c main_arg3 (by decide)
      _ = m ((c : Thread nD τ).loc main_arg3) := by
          show StableHlo.after hostOps0 (W0 m ρ c) (Proc.devRef .tc main_arg3) = _
          after_results

/-- The bias as one row, as region 2 finds it. -/
theorem A2_apply (c : Dev nD) (v : Fin 1024) : A2 m ρ c (ix2 (0 : Fin 1) v) = Bi m c (ix1 v) := by
  show StableHlo.after hostOps2 (W4 m ρ c) (Proc.devRef .tc main_v8) (ix2 (0 : Fin 1) v) = _
  after_results
  rw [W4_arg3]
  exact shapeCast_apply (s := S1024) (t := S1x1024) _ _ (ix2 (0 : Fin 1) v) (ix1 v) (by
    show ((⟨1, ![1024]⟩ : Shape).rowMajor (ix1 v)).val = ((⟨2, ![1, 1024]⟩ : Shape).rowMajor (ix2 (0 : Fin 1) v)).val
    rw [Shape.rowMajor_val_two, Shape.rowMajor_val_one]
    show v.val = 0 * 1024 + v.val
    omega)

/-! ## The result -/

/-- The result array after the run is `G` of the launch arguments. -/
theorem result_eq (c : Dev nD) :
    (dat2 (V5 m ρ) c).arrAt 3 cfg2.N = JointSpec.G (E m c) (P m c) (Wm m c) (Bi m c) := by
  rw [JointRegion.final2 (V5 m ρ) c]
  funext i
  obtain ⟨b, t, u, v, rfl⟩ : ∃ (b : Fin 4) (t : Fin 200) (u : Fin 50) (v : Fin 1024), i = ix4 b t u v :=
    ⟨i 0, i 1, i 2, i 3, eq_ix4 i⟩
  rw [JointRegion.J_of_coords (A0 m ρ c) (A1 m ρ c) (A2 m ρ c) _ b t u v rfl rfl rfl rfl, JointSpec.G_ix4]
  have hrow : (fun k : Fin 1024 => (A0 m ρ c (ix3 b t k) + A1 m ρ c (ix3 b u k)) + A2 m ρ c (ix2 (0 : Fin 1) k))
      = fun k => JointSpec.logit (E m c) (P m c) (Wm m c) (Bi m c) b t u k := by
    funext k
    rw [A0_apply, A1_apply, A2_apply]
    rfl
  rw [hrow, JointSpec.negInf]
  rfl

/-- The run of the idealized kernel: the result buffer ends at `G` of the launch arguments, which end unchanged. -/
theorem run : θ_run defs (onTc (τ := τ) (main (F := Ideal))) ⟨m, fun _ => 0, ρ⟩ (fun r => ∀ c : Dev nD,
      r.2.mem ((c.tc : Thread nD τ).loc main_v9) = JointSpec.G (E m c) (P m c) (Wm m c) (Bi m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h c).1.trans (RunValue.W6_result m ρ c)).trans (result_eq m ρ c), (h c).2⟩)
    (RunValue.run_result m ρ)

end Cert.KernelIdeal.WholeValue

end
-- ==== Proof.RefValue.lean ====
/-
  The reference's result, stage by stage, is the spec's function.

  The reference forms the same logits — tanh of the inputs contracted against the two halves of W's rows, the two
  projections broadcast over each other's row axis and added, the bias added — and then jax's log-softmax of each row:
  M = max (−∞, the row's maximum folded from −∞), the row shifted by M, the logarithm of the sum of exponentials of the
  shifted row, and the difference. Read at an index that is `gRef`; on real inputs `gRef` is `g` (Spec), so the
  reference's result array is `G` of its arguments.
-/
import proofs.«179335_j24481313587346_2_alg».proof.Proof.RefRead
import proofs.«179335_j24481313587346_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx
open Cert.JointSpec (wl wr logit rowMax gRef)

/-! ## The composed index maps at an index written by coordinates -/

theorem il3 (b : Fin 4) (t : Fin 200) (u : Fin 50) (v : Fin 1024) (k : Fin 512) :
    lidx_main_v3 (idx_main_v6 (idx_main_v8 (ix4 b t u v))) k = ix3 b t k :=
  funext fun a => Fin.ext (by match a with | ⟨0, _⟩ => rfl | ⟨1, _⟩ => rfl | ⟨2, _⟩ => rfl)
theorem ir3 (b : Fin 4) (t : Fin 200) (u : Fin 50) (v : Fin 1024) (k : Fin 512) :
    idx_main_v0 (ridx_main_v3 (idx_main_v6 (idx_main_v8 (ix4 b t u v))) k) = ix2 v (wl k) :=
  funext fun a => Fin.ext (by match a with | ⟨0, _⟩ => rfl | ⟨1, _⟩ => rfl)
theorem il5 (b : Fin 4) (t : Fin 200) (u : Fin 50) (v : Fin 1024) (k : Fin 512) :
    lidx_main_v5 (idx_main_v7 (idx_main_v9 (ix4 b t u v))) k = ix3 b u k :=
  funext fun a => Fin.ext (by match a with | ⟨0, _⟩ => rfl | ⟨1, _⟩ => rfl | ⟨2, _⟩ => rfl)
theorem ir5 (b : Fin 4) (t : Fin 200) (u : Fin 50) (v : Fin 1024) (k : Fin 512) :
    idx_main_v1 (ridx_main_v5 (idx_main_v7 (idx_main_v9 (ix4 b t u v))) k) = ix2 v (wr k) :=
  funext fun a => Fin.ext (by match a with | ⟨0, _⟩ => rfl | ⟨1, _⟩ => rfl)
theorem ib (b : Fin 4) (t : Fin 200) (u : Fin 50) (v : Fin 1024) :
    idx_main_v11 (idx_main_v12 (ix4 b t u v)) = ix1 v :=
  funext fun a => Fin.ext (by match a with | ⟨0, _⟩ => rfl)
theorem im (b : Fin 4) (t : Fin 200) (u : Fin 50) (v : Fin 1024) :
    idx_main_call0_v3 (idx_main_call0_v4 (ix4 b t u v)) = ix3 b t u :=
  funext fun a => Fin.ext (by match a with | ⟨0, _⟩ => rfl | ⟨1, _⟩ => rfl | ⟨2, _⟩ => rfl)
theorem is (b : Fin 4) (t : Fin 200) (u : Fin 50) (v : Fin 1024) :
    idx_main_call0_v8 (idx_main_call0_v10 (ix4 b t u v)) = ix3 b t u :=
  funext fun a => Fin.ext (by match a with | ⟨0, _⟩ => rfl | ⟨1, _⟩ => rfl | ⟨2, _⟩ => rfl)
theorem ik (b : Fin 4) (t : Fin 200) (u : Fin 50) (k : Fin 1024) :
    idx_main_call0_v7 (ix3 b t u) k = ix4 b t u k :=
  funext fun a => Fin.ext (by match a with | ⟨0, _⟩ => rfl | ⟨1, _⟩ => rfl | ⟨2, _⟩ => rfl | ⟨3, _⟩ => rfl)

/-! ## The stages at an index -/

/-- The logits. -/
theorem logit_apply (x0 : (⟨S4x200x512, .f32⟩ : BufTy).Contents (Elt Ideal)) (x1 : (⟨S4x50x512, .f32⟩ : BufTy).Contents (Elt Ideal)) (x2 : (⟨S1024x1024, .f32⟩ : BufTy).Contents (Elt Ideal)) (x3 : (⟨S1024, .f32⟩ : BufTy).Contents (Elt Ideal))
    (b : Fin 4) (t : Fin 200) (u : Fin 50) (v : Fin 1024) :
    val_main_v13 (F := Ideal) x0 x1 x2 x3 (ix4 b t u v) = logit x0 x1 x2 x3 b t u v := by
  rw [val_main_v13_apply, val_main_v10_apply, val_main_v8_apply, val_main_v6_apply, val_main_v3_apply,
    val_main_v9_apply, val_main_v7_apply, val_main_v5_apply, val_main_v12_apply, val_main_v11_apply, ib]
  simp only [val_main_v2_apply, val_main_v0_apply, val_main_v4_apply, val_main_v1_apply, il3, ir3, il5, ir5]
  rfl

/-- The reduced index (b, t, u) with the last coordinate k put back is (b, t, u, k). -/
theorem lift_last4 (h : S4x200x50x1024.Reduces [3] S4x200x50) (b : Fin 4) (t : Fin 200) (u : Fin 50)
    (k : Fin (S4x200x50x1024.size 3)) : h.lift (ix3 b t u) k = ix4 b t u (⟨k.val, k.isLt⟩ : Fin 1024) := by
  funext d; apply Fin.ext
  fin_cases d <;> rfl

/-- The row maximum: the fold of max from the word of -∞ over the row's logits. -/
theorem rowmax_apply (x0 : (⟨S4x200x512, .f32⟩ : BufTy).Contents (Elt Ideal)) (x1 : (⟨S4x50x512, .f32⟩ : BufTy).Contents (Elt Ideal)) (x2 : (⟨S1024x1024, .f32⟩ : BufTy).Contents (Elt Ideal)) (x3 : (⟨S1024, .f32⟩ : BufTy).Contents (Elt Ideal))
    (b : Fin 4) (t : Fin 200) (u : Fin 50) :
    val_main_call0_v0 (F := Ideal) x0 x1 x2 x3 (ix3 b t u)
      = (Finset.univ : Finset (Fin 1024)).fold max (Ideal.ofBits .f32 0xFF800000#32) (fun v => logit x0 x1 x2 x3 b t u v) := by
  have hRed : S4x200x50x1024.Reduces [3] S4x200x50 := by decide
  unfold val_main_call0_v0
  rw [Host.reduce_eq_fold_single FloatOps.maximumf _ _ _ hRed]
  show (Finset.univ : Finset (Fin 1024)).fold max (Ideal.ofBits .f32 0xFF800000#32)
      (fun k => val_main_v13 (F := Ideal) x0 x1 x2 x3 (hRed.lift (ix3 b t u) k)) = _
  refine congrArg (fun f => (Finset.univ : Finset (Fin 1024)).fold max (Ideal.ofBits .f32 0xFF800000#32) f) (funext fun k => ?_)
  rw [lift_last4 hRed b t u k]
  exact logit_apply x0 x1 x2 x3 b t u k

/-- The shifted row: the logit less M = max (−∞, the row maximum). -/
theorem shifted_apply (x0 : (⟨S4x200x512, .f32⟩ : BufTy).Contents (Elt Ideal)) (x1 : (⟨S4x50x512, .f32⟩ : BufTy).Contents (Elt Ideal)) (x2 : (⟨S1024x1024, .f32⟩ : BufTy).Contents (Elt Ideal)) (x3 : (⟨S1024, .f32⟩ : BufTy).Contents (Elt Ideal))
    (b : Fin 4) (t : Fin 200) (u : Fin 50) (v : Fin 1024) :
    val_main_call0_v5 (F := Ideal) x0 x1 x2 x3 (ix4 b t u v)
      = logit x0 x1 x2 x3 b t u v - max (Ideal.ofBits .f32 0xFF800000#32)
          ((Finset.univ : Finset (Fin 1024)).fold max (Ideal.ofBits .f32 0xFF800000#32) (fun w => logit x0 x1 x2 x3 b t u w)) := by
  rw [val_main_call0_v5_apply, val_main_call0_v4_apply, val_main_call0_v3_apply, im, val_main_call0_v2_apply,
    val_main_call0_v1_apply, val_main_call0_cst_0_apply, rowmax_apply, logit_apply]
  rfl

/-- The sum of the exponentials of the shifted row. -/
theorem sumexp_apply (x0 : (⟨S4x200x512, .f32⟩ : BufTy).Contents (Elt Ideal)) (x1 : (⟨S4x50x512, .f32⟩ : BufTy).Contents (Elt Ideal)) (x2 : (⟨S1024x1024, .f32⟩ : BufTy).Contents (Elt Ideal)) (x3 : (⟨S1024, .f32⟩ : BufTy).Contents (Elt Ideal))
    (b : Fin 4) (t : Fin 200) (u : Fin 50) :
    val_main_call0_v7 (F := Ideal) x0 x1 x2 x3 (ix3 b t u)
      = ∑ k : Fin 1024, Ideal.exp (logit x0 x1 x2 x3 b t u k - max (Ideal.ofBits .f32 0xFF800000#32)
          ((Finset.univ : Finset (Fin 1024)).fold max (Ideal.ofBits .f32 0xFF800000#32) (fun w => logit x0 x1 x2 x3 b t u w))) := by
  rw [val_main_call0_v7_apply, val_main_call0_cst_1_apply]
  show Ideal.ofBits .f32 0x00000000#32 + _ = _
  rw [Ideal.ofBits_zero_f32, zero_add]
  refine Finset.sum_congr rfl fun k _ => ?_
  rw [ik, val_main_call0_v6_apply, shifted_apply]
  rfl

/-- The result at an index is jax's spelling of the row's log-softmax. -/
theorem result_apply (x0 : (⟨S4x200x512, .f32⟩ : BufTy).Contents (Elt Ideal)) (x1 : (⟨S4x50x512, .f32⟩ : BufTy).Contents (Elt Ideal)) (x2 : (⟨S1024x1024, .f32⟩ : BufTy).Contents (Elt Ideal)) (x3 : (⟨S1024, .f32⟩ : BufTy).Contents (Elt Ideal))
    (b : Fin 4) (t : Fin 200) (u : Fin 50) (v : Fin 1024) :
    val_main_v14 (F := Ideal) x0 x1 x2 x3 (ix4 b t u v) = gRef x0 x1 x2 x3 b t u v := by
  rw [val_main_v14_apply, shifted_apply, val_main_call0_v10_apply, val_main_call0_v9_apply, val_main_call0_v8_apply, is,
    sumexp_apply]
  unfold gRef rowMax
  simp only [JointSpec.negInf]
  rfl

/-- On real inputs the reference's result array is `G` of its arguments. -/
theorem result_eq (x0 : (⟨S4x200x512, .f32⟩ : BufTy).Contents (Elt Ideal)) (x1 : (⟨S4x50x512, .f32⟩ : BufTy).Contents (Elt Ideal)) (x2 : (⟨S1024x1024, .f32⟩ : BufTy).Contents (Elt Ideal)) (x3 : (⟨S1024, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    val_main_v14 (F := Ideal) x0 x1 x2 x3 = JointSpec.G x0 x1 x2 x3 := by
  funext i
  obtain ⟨b, t, u, v, rfl⟩ : ∃ (b : Fin 4) (t : Fin 200) (u : Fin 50) (v : Fin 1024), i = ix4 b t u v :=
    ⟨i 0, i 1, i 2, i 3, eq_ix4 i⟩
  rw [result_apply, JointSpec.G_ix4, JointSpec.g_eq_gRef h0 h1 h2 h3]

end Cert.ReferenceIdeal.RefValue

end
-- ==== Proof.Finite.lean ====
/-
  From the precondition to real inputs.

  `finite_inputs` is the conjunction, over the four argument arrays, of "every entry's absolute value is below +∞".
  On the extended reals |x| = max x (−x) is +∞ exactly at the two infinities, so an array passing the test holds real
  numbers only.
-/
import proofs.«179335_j24481313587346_2_alg».proof.Pre_finite_inputs
import proofs.«179335_j24481313587346_2_alg».proof.Proof.Gen.Pre_finite_inputs
import Idealize.ShloMosaic.PureOps.Ideal.Laws
import Idealize.ShloMosaic.Lib.ValueIdx
import Idealize.ShloMosaic.Lib.ReduceAll
import Idealize.ShloMosaic.Lib.Affine

noncomputable section

namespace Cert.FiniteInputs

open Idealize.ShloMosaic Cert.Pre_finite_inputs

instance : Subsingleton S_.Idx := ⟨fun a b => funext fun d => d.elim0⟩

/-- An extended real whose absolute value compares below the word of +∞ is a real number. -/
theorem real_of_abs_lt (x : EReal)
    (h : FloatOps.cmpf (F := Ideal) (φ := .f32) .olt (FloatOps.absf (F := Ideal) (φ := .f32) x) (FloatOps.ofBits (F := Ideal) .f32 0x7F800000#32) = 1#1) :
    ∃ r : ℝ, x = (r : EReal) := by
  induction x using EReal.rec with
  | bot => exfalso; revert h; simp [Ideal.cmpf_def, Ideal.absf_def, Ideal.cmp, Ideal.ofBits, Ideal.ieee]
  | coe r => exact ⟨r, rfl⟩
  | top => exfalso; revert h; simp [Ideal.cmpf_def, Ideal.absf_def, Ideal.cmp, Ideal.ofBits, Ideal.ieee]

/-- Where `finite_inputs` is all ones, every entry of every argument is a real number. -/
theorem real_of_pre (a0 : FVec Ideal S4x200x512 .f32) (a1 : FVec Ideal S4x50x512 .f32) (a2 : FVec Ideal S1024x1024 .f32)
    (a3 : FVec Ideal S1024 .f32) (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h' := congrFun h ValueIdx.ix0
  dsimp only [fn, fn_part1] at h'
  obtain ⟨h012, h3⟩ := IntOp.andi_eq_one.1 h'
  obtain ⟨h01, h2⟩ := IntOp.andi_eq_one.1 h012
  obtain ⟨h0, h1⟩ := IntOp.andi_eq_one.1 h01
  exact ⟨fun i => real_of_abs_lt (a0 i) (Host.reduce_andi_all _ _ _ _ _ h0 i),
    fun i => real_of_abs_lt (a1 i) (Host.reduce_andi_all _ _ _ _ _ h1 i),
    fun i => real_of_abs_lt (a2 i) (Host.reduce_andi_all _ _ _ _ _ h2 i),
    fun i => real_of_abs_lt (a3 i) (Host.reduce_andi_all _ _ _ _ _ h3 i)⟩

end Cert.FiniteInputs

end
-- ==== Proof.lean ====
/-
  The certificate of the RNN-T joint network kernel against its jnp reference, on the extended reals.

  Both programs compute, for enc : [4,200,512], pred : [4,50,512], W : [1024,1024], bias : [1024], the log-softmax over
  v of   logit[b,t,u,v] = (∑ k tanh(enc[b,t,k]) · W[v,k] + ∑ k tanh(pred[b,u,k]) · W[v,512+k]) + bias[v].
  The kernel does it in three regions (the two projections as one matmul each on rows folded to [800,512] and [200,512],
  then the broadcast sum and the log-softmax tile by tile), spelling the last step  logit − (m + log ∑ exp(logit − m));
  jax spells it  (logit − M) − log ∑ exp(logit − M),  M = max(−∞, m). At the ideal values the format changes are the
  identity and every sum is the plain sum, so both sides are the spec's `G` once  a − (m + ℓ) = (a − m) − ℓ  is known
  with a and m real — which is what the precondition, every input finite, gives.

  The three frames: the two kernels' are the generated frame certificates, the reference's is its run with the result
  dropped. The idealization rewrote nothing, so `preserves` has nothing to state. `algebraic`: the kernel's run ends
  with the result buffer at `G` of the launch arguments (KValue, over the run with the result named, KRun; the
  regions' output arrays are KRegionProj and KRegionJoint over the bodies' stored values KProj and KJoint); the
  reference's run ends at its composed term, which stage by stage is `gRef` (RefValue over the reference's run and its
  stages read at an index), and `gRef` is `g` on real inputs (Spec, LibLogSoftmax, Finite).
-/
import proofs.«179335_j24481313587346_2_alg».proof.Defs
import proofs.«179335_j24481313587346_2_alg».proof.Proof.Gen.Kernel
import proofs.«179335_j24481313587346_2_alg».proof.Proof.Gen.Kernel.Skeleton
import proofs.«179335_j24481313587346_2_alg».proof.Proof.Gen.Kernel.Launch
import proofs.«179335_j24481313587346_2_alg».proof.Proof.Gen.Kernel.Points
import proofs.«179335_j24481313587346_2_alg».proof.Proof.Gen.Kernel.Frame
import proofs.«179335_j24481313587346_2_alg».proof.Proof.Gen.KernelIdeal
import proofs.«179335_j24481313587346_2_alg».proof.Proof.Gen.KernelIdeal.Skeleton
import proofs.«179335_j24481313587346_2_alg».proof.Proof.Gen.KernelIdeal.Launch
import proofs.«179335_j24481313587346_2_alg».proof.Proof.Gen.KernelIdeal.Points
import proofs.«179335_j24481313587346_2_alg».proof.Proof.Gen.KernelIdeal.Frame
import proofs.«179335_j24481313587346_2_alg».proof.Proof.Gen.ReferenceIdeal
import proofs.«179335_j24481313587346_2_alg».proof.Proof.RefRun
import proofs.«179335_j24481313587346_2_alg».proof.Proof.RefRead
import proofs.«179335_j24481313587346_2_alg».proof.Proof.Gen.Pre_finite_inputs
import proofs.«179335_j24481313587346_2_alg».proof.Proof.KValue
import proofs.«179335_j24481313587346_2_alg».proof.Proof.RefValue
import proofs.«179335_j24481313587346_2_alg».proof.Proof.Finite
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments, both runs end with the result buffer at `G` of the arguments: the
    kernel's by its three regions' output arrays, the reference's by its stages, equal to `G` because the precondition
    makes every input, hence every logit and every row maximum, a real number. -/
theorem algebraic : Cert.algebraic_KernelIdeal_ReferenceIdeal := by
  intro m ρ m' ρ' hpre hagree
  refine ⟨fun c => Cert.JointSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.WholeValue.run m ρ, ?_⟩
  refine (θ_run Cert.ReferenceIdeal.defs _ _).mono (fun _ h c => ⟨?_, (h c).2⟩)
    (Cert.ReferenceIdeal.Value.run (F := Ideal) m' ρ')
  obtain ⟨r0, r1, r2, r3⟩ := Cert.FiniteInputs.real_of_pre _ _ _ _ (hpre c)
  rw [(h c).1, Cert.ReferenceIdeal.Read.val_main_v14_eq, (hagree c).1, (hagree c).2.1, (hagree c).2.2.1, (hagree c).2.2.2]
  exact Cert.ReferenceIdeal.RefValue.result_eq _ _ _ _ r0 r1 r2 r3

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
